-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S2x4x4096x3 : Shape := ⟨4, ![2, 4, 4096, 3]⟩
abbrev S2x4x4096 : Shape := ⟨3, ![2, 4, 4096]⟩
abbrev S1x4x512x3 : Shape := ⟨4, ![1, 4, 512, 3]⟩
abbrev S1x4x4096 : Shape := ⟨3, ![1, 4, 4096]⟩
abbrev S4x4096 : Shape := ⟨2, ![4, 4096]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S1x4x512 : Shape := ⟨3, ![1, 4, 512]⟩
abbrev S8x4096 : Shape := ⟨2, ![8, 4096]⟩
abbrev S1x1 : Shape := ⟨2, ![1, 1]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S2x4x4096x3, .f32⟩
  | .hbm, ⟨3, _⟩ => ⟨S2x4x4096x3, .f32⟩
  | .hbm, ⟨4, _⟩ => ⟨S2x4x4096, .f32⟩
  | .hbm, ⟨5, _⟩ => ⟨S2x4x4096, .f32⟩
  | .hbm, ⟨6, _⟩ => ⟨S8x4096, .f32⟩
  | .hbm, ⟨7, _⟩ => ⟨S8x4096, .f32⟩
  | .hbm, ⟨8, _⟩ => ⟨S1x1, .f32⟩
  | .hbm, ⟨9, _⟩ => ⟨S_, .f32⟩
  | .local _ .vmem, ⟨0, _⟩ => ⟨S1x4x512x3, .f32⟩
  | .local _ .vmem, ⟨1, _⟩ => ⟨S1x4x512x3, .f32⟩
  | .local _ .vmem, ⟨2, _⟩ => ⟨S1x4x512x3, .f32⟩
  | .local _ .vmem, ⟨3, _⟩ => ⟨S1x4x512x3, .f32⟩
  | .local _ .vmem, ⟨4, _⟩ => ⟨S1x4x4096, .f32⟩
  | .local _ .vmem, ⟨5, _⟩ => ⟨S1x4x4096, .f32⟩
  | .local _ .vmem, ⟨6, _⟩ => ⟨S1x4x4096, .f32⟩
  | .local _ .vmem, ⟨7, _⟩ => ⟨S1x4x4096, .f32⟩
  | .local _ .vmem, ⟨8, _⟩ => ⟨S8x4096, .f32⟩
  | .local _ .vmem, ⟨9, _⟩ => ⟨S8x4096, .f32⟩
  | .local _ .vmem, ⟨10, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg1 : BitVec 32 := BitVec.ofNat 32 (i 1).val
  let c512_i32 : BitVec 32 := 512#32
  let v24 : BitVec 32 := Scalar.muli arg1 c512_i32
  v24
def k0_mult2 (i : grid0.Coords) : BitVec 32 :=
  let arg2 : BitVec 32 := BitVec.ofNat 32 (i 2).val
  let c512_i32_14 : BitVec 32 := 512#32
  let v26 : BitVec 32 := Scalar.muli arg2 c512_i32_14
  v26
def k0_off1 (i : grid0.Coords) : Fin 3 → Nat :=
  let c0_15 : Index := 0#32
  let c0_16 : Index := 0#32
  let arg1 : BitVec 32 := BitVec.ofNat 32 (i 1).val
  let c512_i32 : BitVec 32 := 512#32
  let v24 : BitVec 32 := Scalar.muli arg1 c512_i32
  let v25 : BitVec 32 := v24
  let v28 : Index := Scalar.indexCast v25
  ![0, 0, v28.toNat]
def k0_off2 (i : grid0.Coords) : Fin 3 → Nat :=
  let c0_19 : Index := 0#32
  let c0_20 : Index := 0#32
  let arg2 : BitVec 32 := BitVec.ofNat 32 (i 2).val
  let c512_i32_14 : BitVec 32 := 512#32
  let v26 : BitVec 32 := Scalar.muli arg2 c512_i32_14
  let v27 : BitVec 32 := v26
  let v36 : Index := Scalar.indexCast v27
  ![0, 0, v36.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S8x4096x3_S2x4x4096x3 : S8x4096x3.ShapeCasts S2x4x4096x3
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  shapeCasts_S4x4096_S1x4x4096 : S4x4096.ShapeCasts S1x4x4096
  inb_S1x4x512x3_S1x4x512x3_0_0_0_0 : ∀ a, (![0, 0, 0, 0] : Fin 4 → Nat) a + S1x4x512x3.size a ≤ S1x4x512x3.size a
  h_S1x4x512x3 : 0 < S1x4x512x3.numel
  shapeCasts_S1x4x512x3_S4x512x3 : S1x4x512x3.ShapeCasts S4x512x3
  reduces_S4x512x3_S4x512 : S4x512x3.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reduces_S4x512x512_S4x512_2 : S4x512x512.Reduces [1] S4x512
  h_S1x4x512 : 0 < S1x4x512.numel
  shapeCasts_S1x4x512_S4x512 : S1x4x512.ShapeCasts S4x512
  shapeCasts_S4x512_S1x4x512 : S4x512.ShapeCasts S1x4x512
  shapeCasts_S2x4x4096_S8x4096 : S2x4x4096.ShapeCasts S8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  reduces_S8x4096_S8 : S8x4096.Reduces [1] S8
  shapeCasts_S8_S8x1 : S8.ShapeCasts S8x1
  reduces_S8x1_S1 : S8x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S4x512x3_S4x512x3_S4x512x512_2_2_1_1_0_0_wf : DotDims.WF S4x512x3 S4x512x3 S4x512x512 [2] [2] [1] [1] [0] [0]
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x4x512.size a ≤ S1x4x4096.size a
  k0_off2_inb : ∀ i : grid0.Coords, ∀ a, (k0_off2 i) a + S1x4x512.size a ≤ S1x4x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x3.size a ≤ S2x4x4096x3.size a
  hwx0_0 : ∀ i : grid0.Coords, EltTy.bits .f32 = 32 ∨ (Rect.block (s := S2x4x4096x3) S1x4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512x3.size a ≤ S2x4x4096x3.size a
  hwx0_1 : ∀ i : grid0.Coords, EltTy.bits .f32 = 32 ∨ (Rect.block (s := S2x4x4096x3) S1x4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4096.size a ≤ S2x4x4096.size a
  hwx0_2 : ∀ i : grid0.Coords, EltTy.bits .f32 = 32 ∨ (Rect.block (s := S2x4x4096) S1x4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x4096.size a ≤ S2x4x4096.size a
  hwx0_3 : ∀ i : grid0.Coords, EltTy.bits .f32 = 32 ∨ (Rect.block (s := S2x4x4096) S1x4x4096.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x4096.size a ≤ S8x4096.size a
  hwx1_0 : ∀ i : grid1.Coords, EltTy.bits .f32 = 32 ∨ (Rect.block (s := S8x4096) S8x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096.size a ≤ S8x4096.size a
  hwx1_1 : ∀ i : grid1.Coords, EltTy.bits .f32 = 32 ∨ (Rect.block (s := S8x4096) S8x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_v0) S1x4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x4x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Base.lean ====
/-
  The first kernel (the fused nearest-neighbour sweep) at a grid point: what its body is run on.

  The grid has 2 × 8 × 8 points (group g, row tile i, column tile j), numbered t = 64 g + 8 i + j. The body's one
  conditional resets both output blocks to +∞; its condition, a chain of integer comparisons of the coordinates
  i and j with zero, holds exactly at the first point of each group, t ≡ 0 (mod 64). Here: that closed form, each
  window's block at a point read off the array as the region finds it, and the fact that an input window's current
  staging buffer holds its block at every point whether or not the pipeline fetched it there.
-/
import proofs.«107834_j61194694033712_2_alg».proof.Proof.Gen.Kernel.Launch
import proofs.«107834_j61194694033712_2_alg».proof.Proof.Gen.Kernel.Skeleton
import proofs.«107834_j61194694033712_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset condition -/

/-- The condition of the body's conditional, from the grid coordinates: "i = 0 and j = 0", as the body's integer chain. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32)) : BitVec 32) 0#32) = 1#1

/-- It holds at the first point of each group only. -/
theorem hcond0 : ∀ t : Fin cfg0.N, cond0 (grid0.coords t) ↔ t.val % 64 = 0 :=
  (by decide +kernel : ∀ t : Fin grid0.N, cond0 (grid0.coords t) ↔ t.val % 64 = 0)

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The staging memrefs at a point -/

abbrev ms0_0 (t : Fin cfg0.N) : Memref sig .tc .vmem S1x4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x4096 .f32 := win0_3.stage (cfg0.slots t 3)
abbrev hs0_3 (t : Fin cfg0.N) : (ms0_3 t).IsWhole := hstage0_3 ((cfg0.slots t 3).cast nbuf0_3)

end Cert.Kernel.Hand

end
-- ==== Proof.K.RunA.lean ====
/-
  The first kernel's body at the first point of a group (the reset case): both output blocks are filled with +∞ and
  then the row tile of the first and the column tile of the second are overwritten with the minimum of what was
  just stored there and the tile's row / column minima. The output blocks may hold anything on entry: the body
  loads them before the fill but uses nothing of what it loaded. The stores each output ends with are found by
  running the body.
-/
import proofs.«107834_j61194694033712_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The reset case: on whole staging memrefs — the inputs' at their blocks, the outputs' at anything — the body
    runs to the continuation holding the inputs' as they were and each output's buffer with its stores written,
    last first. -/
noncomputable def kernelRun0_A (c : Dev nD) (i : grid0.Coords)
    (arg3 : Memref sig .tc .vmem S1x4x512x3 .f32) (harg3 : arg3.IsWhole) (arg4 : Memref sig .tc .vmem S1x4x512x3 .f32) (harg4 : arg4.IsWhole)
    (arg5 : Memref sig .tc .vmem S1x4x4096 .f32) (harg5 : arg5.IsWhole) (arg6 : Memref sig .tc .vmem S1x4x4096 .f32) (harg6 : arg6.IsWhole)
    (hc0 : cond0 i) (x0 : Vec F S1x4x512x3 .f32) (x1 : Vec F S1x4x512x3 .f32) :
    { L : List (View.Piece (Elt F) S1x4x4096 .f32) × List (View.Piece (Elt F) S1x4x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__fused_nn_kernel i arg3 harg3 arg4 harg4 arg5 harg5 arg6 harg6) K } := by
  refine ⟨(?_, ?_), fun E K => ?run⟩
  case run =>
    simp only [cc0__fused_nn_kernel_eq_skeleton]; unfold cc0__fused_nn_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Hand

end
-- ==== Proof.K.RunB.lean ====
/-
  The first kernel's body at every other point of a group (the accumulate case): nothing is reset; the row tile of
  the first output block and the column tile of the second are overwritten with the minimum of what they held and
  the tile's row / column minima, and the rest of each block is left as it was. So here the output blocks' contents
  on entry matter, and what each ends with is its one store written over those contents.
-/
import proofs.«107834_j61194694033712_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulate case: on whole staging memrefs — the inputs' at their blocks, the outputs' at their running
    contents — the body runs to the continuation holding the inputs' as they were and each output's buffer at its
    stores (last first) written over the running contents. -/
noncomputable def kernelRun0_B (c : Dev nD) (i : grid0.Coords)
    (arg3 : Memref sig .tc .vmem S1x4x512x3 .f32) (harg3 : arg3.IsWhole) (arg4 : Memref sig .tc .vmem S1x4x512x3 .f32) (harg4 : arg4.IsWhole)
    (arg5 : Memref sig .tc .vmem S1x4x4096 .f32) (harg5 : arg5.IsWhole) (arg6 : Memref sig .tc .vmem S1x4x4096 .f32) (harg6 : arg6.IsWhole)
    (hc0 : ¬cond0 i) (x0 : Vec F S1x4x512x3 .f32) (x1 : Vec F S1x4x512x3 .f32) (xo2 : Vec F S1x4x4096 .f32) (xo3 : Vec F S1x4x4096 .f32) :
    { L : List (View.Piece (Elt F) S1x4x4096 .f32) × List (View.Piece (Elt F) S1x4x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L.1)
                ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__fused_nn_kernel i arg3 harg3 arg4 harg4 arg5 harg5 arg6 harg6) K } := by
  refine ⟨(?_, ?_), fun E K => ?run⟩
  case run =>
    simp only [cc0__fused_nn_kernel_eq_skeleton]; unfold cc0__fused_nn_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.Kernel.Hand

end
-- ==== Proof.K.R0.lean ====
/-
  The first kernel as a pipeline, at the buffer contents V the region is entered with: what its two output blocks
  hold after each grid point, and the body's obligation at every point.

  Both output windows keep ONE block per group g for all 64 points of the group (their index map reads g only), so
  their staging buffers are written back after the last point of a group and nowhere else, and between two points
  of a group each buffer still holds what the body left. At the first point of a group the body overwrites the
  whole block (with +∞) before its tile stores, so what it leaves does not depend on what the buffer held; at every
  other point it overwrites one tile of 512 columns and leaves the rest, so what it leaves is its store written over
  what the point before left. outsAt0 is that recursion; nothing here says what the values are.
-/
import proofs.«107834_j61194694033712_2_alg».proof.Proof.K.RunB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The whole-block rectangle covers the block -/

theorem hz3 : (![0, 0, 0] : Fin 3 → ℕ) = fun _ => 0 := by
  funext a; fin_cases a <;> rfl

/-- The rectangle the reset fills: the whole [1, 4, 4096] block. -/
abbrev rAll : Rect S1x4x4096 := Rect.unit (s := S1x4x4096) ![0, 0, 0] S1x4x4096.size inb_S1x4x4096_S1x4x4096_0_0_0

theorem mem_rAll (y : S1x4x4096.Idx) : y ∈ rAll.set := View.mem_set_unit_zero hz3 _ y

/-- In the reset case each output's stores are: the tile store, after the whole-block fill. -/
theorem runA_shape2 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) :
    ∃ p w, (kernelRun0_A c i arg3 harg3 arg4 harg4 arg5 harg5 arg6 harg6 hc0 x0 x1).1.1 = [p, ⟨rAll, w⟩] := ⟨_, _, rfl⟩

theorem runA_shape3 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) :
    ∃ p w, (kernelRun0_A c i arg3 harg3 arg4 harg4 arg5 harg5 arg6 harg6 hc0 x0 x1).1.2 = [p, ⟨rAll, w⟩] := ⟨_, _, rfl⟩

/-- So they cover the block. -/
theorem coverA_2 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) (y : S1x4x4096.Idx) :
    ∃ pc ∈ (kernelRun0_A c i arg3 harg3 arg4 harg4 arg5 harg5 arg6 harg6 hc0 x0 x1).1.1, y ∈ pc.1.set := by
  obtain ⟨p, w, h⟩ := runA_shape2 c i arg3 harg3 arg4 harg4 arg5 harg5 arg6 harg6 hc0 x0 x1
  rw [h]; exact ⟨_, List.mem_cons_of_mem _ List.mem_cons_self, mem_rAll y⟩

theorem coverA_3 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) (y : S1x4x4096.Idx) :
    ∃ pc ∈ (kernelRun0_A c i arg3 harg3 arg4 harg4 arg5 harg5 arg6 harg6 hc0 x0 x1).1.2, y ∈ pc.1.set := by
  obtain ⟨p, w, h⟩ := runA_shape3 c i arg3 harg3 arg4 harg4 arg5 harg5 arg6 harg6 hc0 x0 x1
  rw [h]; exact ⟨_, List.mem_cons_of_mem _ List.mem_cons_self, mem_rAll y⟩

/-! ## What the two output blocks hold after a point -/

/-- After a point of the reset case: each output's stores read back (over anything). -/
def outA (c : Dev nD) (t : Fin cfg0.N) (h0 : t.val % 64 = 0) : Vec F S1x4x4096 .f32 × Vec F S1x4x4096 .f32 :=
  ((ms0_2 t).view.read (Elt F) ((ms0_2 t).view.writes (Elt F) (ms0_2 t).view.junk
      (kernelRun0_A c (grid0.coords t) (ms0_0 t) (hs0_0 t) (ms0_1 t) (hs0_1 t) (ms0_2 t) (hs0_2 t) (ms0_3 t) (hs0_3 t) ((hcond0 t).mpr h0) (iblk0 V c 0 t) (iblk0 V c 1 t)).1.1),
   (ms0_3 t).view.read (Elt F) ((ms0_3 t).view.writes (Elt F) (ms0_3 t).view.junk
      (kernelRun0_A c (grid0.coords t) (ms0_0 t) (hs0_0 t) (ms0_1 t) (hs0_1 t) (ms0_2 t) (hs0_2 t) (ms0_3 t) (hs0_3 t) ((hcond0 t).mpr h0) (iblk0 V c 0 t) (iblk0 V c 1 t)).1.2))

/-- After a point of the accumulate case, from what the point before left (xo): each output's store written over it. -/
def outB (c : Dev nD) (t : Fin cfg0.N) (h0 : ¬t.val % 64 = 0) (xo : Vec F S1x4x4096 .f32 × Vec F S1x4x4096 .f32) :
    Vec F S1x4x4096 .f32 × Vec F S1x4x4096 .f32 :=
  ((ms0_2 t).view.read (Elt F) ((ms0_2 t).view.writes (Elt F) ((hs0_2 t).unread xo.1)
      (kernelRun0_B c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) xo.1 xo.2).1.1),
   (ms0_3 t).view.read (Elt F) ((ms0_3 t).view.writes (Elt F) ((hs0_3 t).unread xo.2)
      (kernelRun0_B c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) xo.1 xo.2).1.2))

/-- THE ACCUMULATION: what the two output blocks hold after the body at position n — the reset case's contents at
    the first point of a group, otherwise the accumulate case's over what position n − 1 left. -/
def outsAt0 (c : Dev nD) : (n : ℕ) → n < cfg0.N → Vec F S1x4x4096 .f32 × Vec F S1x4x4096 .f32
  | 0, hn => outA V c ⟨0, hn⟩ (Nat.zero_mod _)
  | n + 1, hn =>
    if h0 : (n + 1) % 64 = 0 then outA V c ⟨n + 1, hn⟩ h0
    else outB V c ⟨n + 1, hn⟩ h0 (outsAt0 c n (Nat.lt_of_succ_lt hn))

theorem outsAt0_A (c : Dev nD) (t : Fin cfg0.N) (h0 : t.val % 64 = 0) : outsAt0 V c t.val t.isLt = outA V c t h0 := by
  obtain ⟨n, hn⟩ := t
  cases n with
  | zero => exact rfl
  | succ n => exact (dif_pos h0).trans rfl

theorem outsAt0_B (c : Dev nD) (t : Fin cfg0.N) (h0 : ¬t.val % 64 = 0) :
    outsAt0 V c t.val t.isLt = outB V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the first pipeline on core c: the arrays as the region finds them; after the body at point t
    each input's buffer at its block and the outputs' at outsAt0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a point that is not the first of its group, output window 2's buffer holds what the body left at the point
    before: it was not written back between. -/
theorem before0_2_B (c : Dev nD) (t : Fin cfg0.N) (h0 : ¬t.val % 64 = 0) (d) :
    (dat0 V c).before 2 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

theorem before0_3_B (c : Dev nD) (t : Fin cfg0.N) (h0 : ¬t.val % 64 = 0) (d) :
    (dat0 V c).before 3 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' memrefs hold their blocks; the closed form says which case the point is in; in
    the accumulate case each output's memref holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 64 = 0
  · rw [outsAt0_A V c t h0]
    unfold outA
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk0 V c 0 t) (iblk0 V c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 c _ _ _ _ _ _ _ _ _ _ _ _)
    · unfold owns; iexists _; isplitr
      swap; · iexact H3
      ipureintro; exact View.read_writes_of_cover _ _ _ _ _ (coverA_3 c _ _ _ _ _ _ _ _ _ _ _ _)
  · rw [outsAt0_B V c t h0]
    simp only [before0_2_B V c t h0, before0_3_B V c t h0]
    unfold outB
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk0 V c 0 t) (iblk0 V c 1 t) _ _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    · unfold owns; iexists _; isplitr
      swap; · iexact H3
      ipureintro; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1.lean ====
/-
  The second kernel (the finalisation) as one pipeline point: its two input windows are the whole [8, 4096] arrays of
  nearest-neighbour distances, its output window the one-entry result. The body loads both inputs, loads the output
  (using nothing of it) and stores one value computed from the two inputs. Stated at the buffer contents the region
  is entered with, a parameter.
-/
import proofs.«107834_j61194694033712_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at the pipeline's point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole [8, 4096] rectangle the body loads each input through, and the whole [1, 1] rectangle it stores through. -/
abbrev r1_in : Rect S8x4096 := Rect.unit (s := S8x4096) ![0, 0] S8x4096.size inb_S8x4096_S8x4096_0_0
abbrev r1_out : Rect S1x1 := Rect.unit (s := S1x1) ![0, 0] S1x1.size inb_S1x1_S1x1_0_0

/-- The output window's buffer after the body, from the two input blocks: its one store. -/
def out1_2 (x0 : Vec F S8x4096 .f32) (x1 : Vec F S8x4096 .f32) : Vec F S1x1 .f32 :=
  View.canon [⟨r1_out, k1_pay1 (View.ld x0 r1_in) (View.ld x1 r1_in)⟩]

/-- The one store covers the one-entry buffer. -/
theorem cover1_2 (p0 : Vec F S1x1 .f32) (y : S1x1.Idx) :
    ∃ pc ∈ ([⟨r1_out, p0⟩] : List (View.Piece (Elt F) S1x1 .f32)), y ∈ pc.1.set :=
  View.cover_of_tiled [⟨r1_out, p0⟩] S1x1.size (by rfl) y

set_option maxHeartbeats 1000000 in
/-- The body on whole staging memrefs, the inputs' at contents x0, x1 and the output's at anything, runs to the
    continuation holding the inputs' as they were and the output's at out1_2 of them. -/
theorem sound_kernel1 (c : Dev nD) (E : Set ℕ) (i : grid1.Coords) (arg1 : Memref sig .tc .vmem S8x4096 .f32) (harg1 : arg1.IsWhole)
    (arg2 : Memref sig .tc .vmem S8x4096 .f32) (harg2 : arg2.IsWhole) (arg3 : Memref sig .tc .vmem S1x1 .f32) (harg3 : arg3.IsWhole)
    (x0 : Vec F S8x4096 .f32) (x1 : Vec F S8x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core c: the arrays as the region finds them; after the body each input's
    buffer at its block and the output's at out1_2 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program's run: reshape the two arguments, the first kernel's region, reshape its two results, the second
  kernel's region, reshape its result to a scalar. The buffer contents at each of the six boundaries are a fold from
  the launch memory: a stretch of host operations applies them; a region leaves its arrays at what its pipeline's
  write-backs leave and every other buffer as entered. Every weakly fair execution terminates, faults nowhere, and
  ends with every unscoped buffer at the last boundary's contents — in particular the arguments as launched.
-/
import proofs.«107834_j61194694033712_2_alg».proof.Proof.K.R0
import proofs.«107834_j61194694033712_2_alg».proof.Proof.K.R1
import proofs.«107834_j61194694033712_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the two reshapes of the arguments (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes of the first region's results (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape (the return). -/
abbrev W5 : Dev nD → Valuation τ sig (Elt F) := fun c => StableHlo.after hostOps2 (W4 m ρ c)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at W1, left at W2. Its arrays are split out
    of the unscoped buffers and put back at the exit contents; the generator register passes into the class invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out
    of the unscoped buffers and put back at the exit contents; the generator register passes into the class invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W5_main_arg0 m ρ c),
    (h c _ (mem_uc main_arg1 (by decide))).trans (W5_main_arg1 m ρ c)⟩) (run_all m ρ)

end Cert.Kernel.Hand

end
-- ==== Proof.KI.Base.lean ====
/-
  The first kernel (the fused nearest-neighbour sweep) at a grid point: what its body is run on.

  The grid has 2 × 8 × 8 points (group g, row tile i, column tile j), numbered t = 64 g + 8 i + j. The body's one
  conditional resets both output blocks to +∞; its condition, a chain of integer comparisons of the coordinates
  i and j with zero, holds exactly at the first point of each group, t ≡ 0 (mod 64). Here: that closed form, each
  window's block at a point read off the array as the region finds it, and the fact that an input window's current
  staging buffer holds its block at every point whether or not the pipeline fetched it there.
-/
import proofs.«107834_j61194694033712_2_alg».proof.Proof.Gen.KernelIdeal.Launch
import proofs.«107834_j61194694033712_2_alg».proof.Proof.Gen.KernelIdeal.Skeleton
import proofs.«107834_j61194694033712_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset condition -/

/-- The condition of the body's conditional, from the grid coordinates: "i = 0 and j = 0", as the body's integer chain. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32)) : BitVec 32) 0#32) = 1#1

/-- It holds at the first point of each group only. -/
theorem hcond0 : ∀ t : Fin cfg0.N, cond0 (grid0.coords t) ↔ t.val % 64 = 0 :=
  (by decide +kernel : ∀ t : Fin grid0.N, cond0 (grid0.coords t) ↔ t.val % 64 = 0)

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The staging memrefs at a point -/

abbrev ms0_0 (t : Fin cfg0.N) : Memref sig .tc .vmem S1x4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x4096 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.RunA.lean ====
/-
  The first kernel's body at the first point of a group (the reset case): both output blocks are filled with +∞ and
  then the row tile of the first and the column tile of the second are overwritten with the minimum of what was
  just stored there and the tile's row / column minima. The output blocks may hold anything on entry: the body
  loads them before the fill but uses nothing of what it loaded. The stores each output ends with are found by
  running the body.
-/
import proofs.«107834_j61194694033712_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The reset case: on whole staging memrefs — the inputs' at their blocks, the outputs' at anything — the body
    runs to the continuation holding the inputs' as they were and each output's buffer with its stores written,
    last first. -/
noncomputable def kernelRun0_A (c : Dev nD) (i : grid0.Coords)
    (arg3 : Memref sig .tc .vmem S1x4x512x3 .f32) (harg3 : arg3.IsWhole) (arg4 : Memref sig .tc .vmem S1x4x512x3 .f32) (harg4 : arg4.IsWhole)
    (arg5 : Memref sig .tc .vmem S1x4x4096 .f32) (harg5 : arg5.IsWhole) (arg6 : Memref sig .tc .vmem S1x4x4096 .f32) (harg6 : arg6.IsWhole)
    (hc0 : cond0 i) (x0 : Vec F S1x4x512x3 .f32) (x1 : Vec F S1x4x512x3 .f32) :
    { L : List (View.Piece (Elt F) S1x4x4096 .f32) × List (View.Piece (Elt F) S1x4x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__fused_nn_kernel i arg3 harg3 arg4 harg4 arg5 harg5 arg6 harg6) K } := by
  refine ⟨(?_, ?_), fun E K => ?run⟩
  case run =>
    simp only [cc0__fused_nn_kernel_eq_skeleton]; unfold cc0__fused_nn_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Hand

end
-- ==== Proof.KI.RunB.lean ====
/-
  The first kernel's body at every other point of a group (the accumulate case): nothing is reset; the row tile of
  the first output block and the column tile of the second are overwritten with the minimum of what they held and
  the tile's row / column minima, and the rest of each block is left as it was. So here the output blocks' contents
  on entry matter, and what each ends with is its one store written over those contents.
-/
import proofs.«107834_j61194694033712_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulate case: on whole staging memrefs — the inputs' at their blocks, the outputs' at their running
    contents — the body runs to the continuation holding the inputs' as they were and each output's buffer at its
    stores (last first) written over the running contents. -/
noncomputable def kernelRun0_B (c : Dev nD) (i : grid0.Coords)
    (arg3 : Memref sig .tc .vmem S1x4x512x3 .f32) (harg3 : arg3.IsWhole) (arg4 : Memref sig .tc .vmem S1x4x512x3 .f32) (harg4 : arg4.IsWhole)
    (arg5 : Memref sig .tc .vmem S1x4x4096 .f32) (harg5 : arg5.IsWhole) (arg6 : Memref sig .tc .vmem S1x4x4096 .f32) (harg6 : arg6.IsWhole)
    (hc0 : ¬cond0 i) (x0 : Vec F S1x4x512x3 .f32) (x1 : Vec F S1x4x512x3 .f32) (xo2 : Vec F S1x4x4096 .f32) (xo3 : Vec F S1x4x4096 .f32) :
    { L : List (View.Piece (Elt F) S1x4x4096 .f32) × List (View.Piece (Elt F) S1x4x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L.1)
                ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__fused_nn_kernel i arg3 harg3 arg4 harg4 arg5 harg5 arg6 harg6) K } := by
  refine ⟨(?_, ?_), fun E K => ?run⟩
  case run =>
    simp only [cc0__fused_nn_kernel_eq_skeleton]; unfold cc0__fused_nn_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.KernelIdeal.Hand

end
-- ==== Proof.KI.R0.lean ====
/-
  The first kernel as a pipeline, at the buffer contents V the region is entered with: what its two output blocks
  hold after each grid point, and the body's obligation at every point.

  Both output windows keep ONE block per group g for all 64 points of the group (their index map reads g only), so
  their staging buffers are written back after the last point of a group and nowhere else, and between two points
  of a group each buffer still holds what the body left. At the first point of a group the body overwrites the
  whole block (with +∞) before its tile stores, so what it leaves does not depend on what the buffer held; at every
  other point it overwrites one tile of 512 columns and leaves the rest, so what it leaves is its store written over
  what the point before left. outsAt0 is that recursion; nothing here says what the values are.
-/
import proofs.«107834_j61194694033712_2_alg».proof.Proof.KI.RunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The whole-block rectangle covers the block -/

theorem hz3 : (![0, 0, 0] : Fin 3 → ℕ) = fun _ => 0 := by
  funext a; fin_cases a <;> rfl

/-- The rectangle the reset fills: the whole [1, 4, 4096] block. -/
abbrev rAll : Rect S1x4x4096 := Rect.unit (s := S1x4x4096) ![0, 0, 0] S1x4x4096.size inb_S1x4x4096_S1x4x4096_0_0_0

theorem mem_rAll (y : S1x4x4096.Idx) : y ∈ rAll.set := View.mem_set_unit_zero hz3 _ y

/-- In the reset case each output's stores are: the tile store, after the whole-block fill. -/
theorem runA_shape2 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) :
    ∃ p w, (kernelRun0_A c i arg3 harg3 arg4 harg4 arg5 harg5 arg6 harg6 hc0 x0 x1).1.1 = [p, ⟨rAll, w⟩] := ⟨_, _, rfl⟩

theorem runA_shape3 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) :
    ∃ p w, (kernelRun0_A c i arg3 harg3 arg4 harg4 arg5 harg5 arg6 harg6 hc0 x0 x1).1.2 = [p, ⟨rAll, w⟩] := ⟨_, _, rfl⟩

/-- So they cover the block. -/
theorem coverA_2 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) (y : S1x4x4096.Idx) :
    ∃ pc ∈ (kernelRun0_A c i arg3 harg3 arg4 harg4 arg5 harg5 arg6 harg6 hc0 x0 x1).1.1, y ∈ pc.1.set := by
  obtain ⟨p, w, h⟩ := runA_shape2 c i arg3 harg3 arg4 harg4 arg5 harg5 arg6 harg6 hc0 x0 x1
  rw [h]; exact ⟨_, List.mem_cons_of_mem _ List.mem_cons_self, mem_rAll y⟩

theorem coverA_3 (c : Dev nD) (i : grid0.Coords) (arg3 : Memref sig .tc .vmem S1x4x512x3 .f32) (harg3 : arg3.IsWhole)
    (arg4 : Memref sig .tc .vmem S1x4x512x3 .f32) (harg4 : arg4.IsWhole) (arg5 : Memref sig .tc .vmem S1x4x4096 .f32) (harg5 : arg5.IsWhole)
    (arg6 : Memref sig .tc .vmem S1x4x4096 .f32) (harg6 : arg6.IsWhole) (hc0 : cond0 i) (x0 x1 : Vec F S1x4x512x3 .f32) (y : S1x4x4096.Idx) :
    ∃ pc ∈ (kernelRun0_A c i arg3 harg3 arg4 harg4 arg5 harg5 arg6 harg6 hc0 x0 x1).1.2, y ∈ pc.1.set := by
  obtain ⟨p, w, h⟩ := runA_shape3 c i arg3 harg3 arg4 harg4 arg5 harg5 arg6 harg6 hc0 x0 x1
  rw [h]; exact ⟨_, List.mem_cons_of_mem _ List.mem_cons_self, mem_rAll y⟩

/-! ## What the two output blocks hold after a point -/

/-- After a point of the reset case: each output's stores read back (over anything). -/
def outA (c : Dev nD) (t : Fin cfg0.N) (h0 : t.val % 64 = 0) : Vec F S1x4x4096 .f32 × Vec F S1x4x4096 .f32 :=
  ((ms0_2 t).view.read (Elt F) ((ms0_2 t).view.writes (Elt F) (ms0_2 t).view.junk
      (kernelRun0_A c (grid0.coords t) (ms0_0 t) (hs0_0 t) (ms0_1 t) (hs0_1 t) (ms0_2 t) (hs0_2 t) (ms0_3 t) (hs0_3 t) ((hcond0 t).mpr h0) (iblk0 V c 0 t) (iblk0 V c 1 t)).1.1),
   (ms0_3 t).view.read (Elt F) ((ms0_3 t).view.writes (Elt F) (ms0_3 t).view.junk
      (kernelRun0_A c (grid0.coords t) (ms0_0 t) (hs0_0 t) (ms0_1 t) (hs0_1 t) (ms0_2 t) (hs0_2 t) (ms0_3 t) (hs0_3 t) ((hcond0 t).mpr h0) (iblk0 V c 0 t) (iblk0 V c 1 t)).1.2))

/-- After a point of the accumulate case, from what the point before left (xo): each output's store written over it. -/
def outB (c : Dev nD) (t : Fin cfg0.N) (h0 : ¬t.val % 64 = 0) (xo : Vec F S1x4x4096 .f32 × Vec F S1x4x4096 .f32) :
    Vec F S1x4x4096 .f32 × Vec F S1x4x4096 .f32 :=
  ((ms0_2 t).view.read (Elt F) ((ms0_2 t).view.writes (Elt F) ((hs0_2 t).unread xo.1)
      (kernelRun0_B c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) xo.1 xo.2).1.1),
   (ms0_3 t).view.read (Elt F) ((ms0_3 t).view.writes (Elt F) ((hs0_3 t).unread xo.2)
      (kernelRun0_B c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) xo.1 xo.2).1.2))

/-- THE ACCUMULATION: what the two output blocks hold after the body at position n — the reset case's contents at
    the first point of a group, otherwise the accumulate case's over what position n − 1 left. -/
def outsAt0 (c : Dev nD) : (n : ℕ) → n < cfg0.N → Vec F S1x4x4096 .f32 × Vec F S1x4x4096 .f32
  | 0, hn => outA V c ⟨0, hn⟩ (Nat.zero_mod _)
  | n + 1, hn =>
    if h0 : (n + 1) % 64 = 0 then outA V c ⟨n + 1, hn⟩ h0
    else outB V c ⟨n + 1, hn⟩ h0 (outsAt0 c n (Nat.lt_of_succ_lt hn))

theorem outsAt0_A (c : Dev nD) (t : Fin cfg0.N) (h0 : t.val % 64 = 0) : outsAt0 V c t.val t.isLt = outA V c t h0 := by
  obtain ⟨n, hn⟩ := t
  cases n with
  | zero => exact rfl
  | succ n => exact (dif_pos h0).trans rfl

theorem outsAt0_B (c : Dev nD) (t : Fin cfg0.N) (h0 : ¬t.val % 64 = 0) :
    outsAt0 V c t.val t.isLt = outB V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the first pipeline on core c: the arrays as the region finds them; after the body at point t
    each input's buffer at its block and the outputs' at outsAt0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a point that is not the first of its group, output window 2's buffer holds what the body left at the point
    before: it was not written back between. -/
theorem before0_2_B (c : Dev nD) (t : Fin cfg0.N) (h0 : ¬t.val % 64 = 0) (d) :
    (dat0 V c).before 2 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

theorem before0_3_B (c : Dev nD) (t : Fin cfg0.N) (h0 : ¬t.val % 64 = 0) (d) :
    (dat0 V c).before 3 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' memrefs hold their blocks; the closed form says which case the point is in; in
    the accumulate case each output's memref holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 64 = 0
  · rw [outsAt0_A V c t h0]
    unfold outA
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk0 V c 0 t) (iblk0 V c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 c _ _ _ _ _ _ _ _ _ _ _ _)
    · unfold owns; iexists _; isplitr
      swap; · iexact H3
      ipureintro; exact View.read_writes_of_cover _ _ _ _ _ (coverA_3 c _ _ _ _ _ _ _ _ _ _ _ _)
  · rw [outsAt0_B V c t h0]
    simp only [before0_2_B V c t h0, before0_3_B V c t h0]
    unfold outB
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk0 V c 0 t) (iblk0 V c 1 t) _ _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    · unfold owns; iexists _; isplitr
      swap; · iexact H3
      ipureintro; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.lean ====
/-
  The second kernel (the finalisation) as one pipeline point: its two input windows are the whole [8, 4096] arrays of
  nearest-neighbour distances, its output window the one-entry result. The body loads both inputs, loads the output
  (using nothing of it) and stores one value computed from the two inputs. Stated at the buffer contents the region
  is entered with, a parameter.
-/
import proofs.«107834_j61194694033712_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at the pipeline's point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole [8, 4096] rectangle the body loads each input through, and the whole [1, 1] rectangle it stores through. -/
abbrev r1_in : Rect S8x4096 := Rect.unit (s := S8x4096) ![0, 0] S8x4096.size inb_S8x4096_S8x4096_0_0
abbrev r1_out : Rect S1x1 := Rect.unit (s := S1x1) ![0, 0] S1x1.size inb_S1x1_S1x1_0_0

/-- The output window's buffer after the body, from the two input blocks: its one store. -/
def out1_2 (x0 : Vec F S8x4096 .f32) (x1 : Vec F S8x4096 .f32) : Vec F S1x1 .f32 :=
  View.canon [⟨r1_out, k1_pay1 (View.ld x0 r1_in) (View.ld x1 r1_in)⟩]

/-- The one store covers the one-entry buffer. -/
theorem cover1_2 (p0 : Vec F S1x1 .f32) (y : S1x1.Idx) :
    ∃ pc ∈ ([⟨r1_out, p0⟩] : List (View.Piece (Elt F) S1x1 .f32)), y ∈ pc.1.set :=
  View.cover_of_tiled [⟨r1_out, p0⟩] S1x1.size (by rfl) y

set_option maxHeartbeats 1000000 in
/-- The body on whole staging memrefs, the inputs' at contents x0, x1 and the output's at anything, runs to the
    continuation holding the inputs' as they were and the output's at out1_2 of them. -/
theorem sound_kernel1 (c : Dev nD) (E : Set ℕ) (i : grid1.Coords) (arg1 : Memref sig .tc .vmem S8x4096 .f32) (harg1 : arg1.IsWhole)
    (arg2 : Memref sig .tc .vmem S8x4096 .f32) (harg2 : arg2.IsWhole) (arg3 : Memref sig .tc .vmem S1x1 .f32) (harg3 : arg3.IsWhole)
    (x0 : Vec F S8x4096 .f32) (x1 : Vec F S8x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core c: the arrays as the region finds them; after the body each input's
    buffer at its block and the output's at out1_2 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program's run: reshape the two arguments, the first kernel's region, reshape its two results, the second
  kernel's region, reshape its result to a scalar. The buffer contents at each of the six boundaries are a fold from
  the launch memory: a stretch of host operations applies them; a region leaves its arrays at what its pipeline's
  write-backs leave and every other buffer as entered. Every weakly fair execution terminates, faults nowhere, and
  ends with every unscoped buffer at the last boundary's contents — in particular the arguments as launched.
-/
import proofs.«107834_j61194694033712_2_alg».proof.Proof.KI.R0
import proofs.«107834_j61194694033712_2_alg».proof.Proof.KI.R1
import proofs.«107834_j61194694033712_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the two reshapes of the arguments (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes of the first region's results (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape (the return). -/
abbrev W5 : Dev nD → Valuation τ sig (Elt F) := fun c => StableHlo.after hostOps2 (W4 m ρ c)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at W1, left at W2. Its arrays are split out
    of the unscoped buffers and put back at the exit contents; the generator register passes into the class invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out
    of the unscoped buffers and put back at the exit contents; the generator register passes into the class invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W5_main_arg0 m ρ c),
    (h c _ (mem_uc main_arg1 (by decide))).trans (W5_main_arg1 m ρ c)⟩) (run_all m ρ)

end Cert.KernelIdeal.Hand

end
-- ==== Proof.KI.HostReads.lean ====
/-
  What the host's reshapes leave, read at an index.

  Between the launches the host only regroups arrays in row-major order. The eight clouds [8, 4096, 3] are regrouped
  as two groups of four, [2, 4, 4096, 3]: entry (g, b', n, k) of the regrouped array is entry (4 g + b', n, k) of the
  original. The two groups of four rows of 4096 values, [2, 4, 4096], are regrouped as eight rows, [8, 4096]: entry
  (b, n) is entry (b / 4, b % 4, n) of the original. The 1 × 1 array becomes a scalar, its one entry.
-/
import proofs.«107834_j61194694033712_2_alg».proof.Proof.KI.Base
import Idealize.ShloMosaic.Lib.StableHlo.Run
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The clouds regrouped as two groups of four -/

/-- [8, 4096, 3] regrouped as [2, 4, 4096, 3], at an index: cloud 4 g + b'. -/
theorem cast_8_2x4_apply {α : Type} (x : S8x4096x3.Idx → α) (h : S8x4096x3.ShapeCasts S2x4x4096x3)
    (g : Fin 2) (bb : Fin 4) (n : Fin 4096) (k : Fin 3) :
    shapeCast S2x4x4096x3 x h (ix4 g bb n k) = x (ix3 (⟨4 * g.val + bb.val, by omega⟩ : Fin 8) n k) :=
  shapeCast_apply x h _ _ (by
    rw [Shape.rowMajor_val_four, Shape.rowMajor_val_three]
    show ((4 * g.val + bb.val) * 4096 + n.val) * 3 + k.val = ((g.val * 4 + bb.val) * 4096 + n.val) * 3 + k.val
    omega)

/-- [2, 4, 4096] regrouped as [8, 4096], at an index: group b / 4, row b % 4. -/
theorem cast_2x4_8_apply {α : Type} (x : S2x4x4096.Idx → α) (h : S2x4x4096.ShapeCasts S8x4096)
    (b : Fin 8) (n : Fin 4096) :
    shapeCast S8x4096 x h (ix2 b n) = x (ix3 (⟨b.val / 4, by omega⟩ : Fin 2) (⟨b.val % 4, by omega⟩ : Fin 4) n) :=
  shapeCast_apply x h _ _ (by
    rw [Shape.rowMajor_val_three, Shape.rowMajor_val_two]
    show (b.val / 4 * 4 + b.val % 4) * 4096 + n.val = b.val * 4096 + n.val
    omega)

/-- The 1 × 1 array as a scalar: its one entry. -/
theorem cast_1x1_scalar_apply {α : Type} (x : S1x1.Idx → α) (h : S1x1.ShapeCasts S_) (j : S_.Idx) :
    shapeCast S_ x h j = x (ix2 (0 : Fin 1) (0 : Fin 1)) :=
  shapeCast_apply x h _ _ (by
    rw [Shape.rowMajor_val_two]
    have := (S_.rowMajor j).isLt
    show 0 * 1 + 0 = (S_.rowMajor j).val
    simp [Shape.numel] at this
    omega)

/-! ## The three stretches of host operations -/

section Host

variable (W : Valuation τ sig (Elt F))

/-- After the first stretch the first regrouped input at (g, b', n, k) is the first input at (4 g + b', n, k). -/
theorem after0_v0 (g : Fin 2) (bb : Fin 4) (n : Fin 4096) (k : Fin 3) :
    StableHlo.after (hostOps0 (F := F)) W (Proc.devRef .tc main_v0) (ix4 g bb n k)
      = W (Proc.devRef .tc main_arg0) (ix3 (⟨4 * g.val + bb.val, by omega⟩ : Fin 8) n k) := by
  have e : (StableHlo.after (hostOps0 (F := F)) W (Proc.devRef .tc main_v0) : S2x4x4096x3.Idx → Elt F .f32)
      = shapeCast S2x4x4096x3 (W (Proc.devRef .tc main_arg0)) shapeCasts_S8x4096x3_S2x4x4096x3 := by
    after_results; rfl
  rw [e]
  exact cast_8_2x4_apply _ _ g bb n k

/-- After the first stretch the second regrouped input at (g, b', n, k) is the second input at (4 g + b', n, k). -/
theorem after0_v1 (g : Fin 2) (bb : Fin 4) (n : Fin 4096) (k : Fin 3) :
    StableHlo.after (hostOps0 (F := F)) W (Proc.devRef .tc main_v1) (ix4 g bb n k)
      = W (Proc.devRef .tc main_arg1) (ix3 (⟨4 * g.val + bb.val, by omega⟩ : Fin 8) n k) := by
  have e : (StableHlo.after (hostOps0 (F := F)) W (Proc.devRef .tc main_v1) : S2x4x4096x3.Idx → Elt F .f32)
      = shapeCast S2x4x4096x3 (W (Proc.devRef .tc main_arg1)) shapeCasts_S8x4096x3_S2x4x4096x3 := by
    after_results; rfl
  rw [e]
  exact cast_8_2x4_apply _ _ g bb n k

/-- After the second stretch the first regrouped result at (b, n) is the first result at (b / 4, b % 4, n). -/
theorem after1_v3 (b : Fin 8) (n : Fin 4096) :
    StableHlo.after (hostOps1 (F := F)) W (Proc.devRef .tc main_v3) (ix2 b n)
      = W (Proc.devRef .tc main_v2_0) (ix3 (⟨b.val / 4, by omega⟩ : Fin 2) (⟨b.val % 4, by omega⟩ : Fin 4) n) := by
  have e : (StableHlo.after (hostOps1 (F := F)) W (Proc.devRef .tc main_v3) : S8x4096.Idx → Elt F .f32)
      = shapeCast S8x4096 (W (Proc.devRef .tc main_v2_0)) shapeCasts_S2x4x4096_S8x4096 := by
    after_results; rfl
  rw [e]
  exact cast_2x4_8_apply _ _ b n

/-- After the second stretch the second regrouped result at (b, n) is the second result at (b / 4, b % 4, n). -/
theorem after1_v4 (b : Fin 8) (n : Fin 4096) :
    StableHlo.after (hostOps1 (F := F)) W (Proc.devRef .tc main_v4) (ix2 b n)
      = W (Proc.devRef .tc main_v2_1) (ix3 (⟨b.val / 4, by omega⟩ : Fin 2) (⟨b.val % 4, by omega⟩ : Fin 4) n) := by
  have e : (StableHlo.after (hostOps1 (F := F)) W (Proc.devRef .tc main_v4) : S8x4096.Idx → Elt F .f32)
      = shapeCast S8x4096 (W (Proc.devRef .tc main_v2_1)) shapeCasts_S2x4x4096_S8x4096 := by
    after_results; rfl
  rw [e]
  exact cast_2x4_8_apply _ _ b n

/-- After the third stretch the scalar result is the one entry of the 1 × 1 result. -/
theorem after2_v6 (j : S_.Idx) :
    StableHlo.after (hostOps2 (F := F)) W (Proc.devRef .tc main_v6) j
      = W (Proc.devRef .tc main_v5) (ix2 (0 : Fin 1) (0 : Fin 1)) := by
  have e : (StableHlo.after (hostOps2 (F := F)) W (Proc.devRef .tc main_v6) : S_.Idx → Elt F .f32)
      = shapeCast S_ (W (Proc.devRef .tc main_v5)) shapeCasts_S1x1_S_ := by
    after_results; rfl
  rw [e]
  exact cast_1x1_scalar_apply _ _ j

end Host

end Cert.KernelIdeal.Hand

end
-- ==== Proof.KI.ArrAt.lean ====
/-
  The arrays the two pipelines leave, read off their write-backs.

  First kernel. Each of its two results is a [2, 4, 4096] array cut into the two blocks [1, 4, 4096] of its groups;
  the block of group g is written back once, after the last point 64 g + 63 of the group, with what the body left in
  the staging buffer there. The two blocks are disjoint and cover the array, so entry (g, b', n) of the array after
  the run is entry (0, b', n) of what the accumulation left after point 64 g + 63.

  Second kernel. Its one point reads the two whole [8, 4096] arrays and writes back the whole 1 × 1 result, so the
  result after the run is the body's value of the two arrays as the region finds them.
-/
import proofs.«107834_j61194694033712_2_alg».proof.Proof.KI.R0
import proofs.«107834_j61194694033712_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's results -/

/-- The block indices of the two output windows at point t: group t / 64 on the leading axis, zero on the others. -/
theorem idx0_out : ∀ t : Fin cfg0.N,
    win0_2.index t (0 : Fin 3) = t.val / 64 ∧ win0_2.index t (1 : Fin 3) = 0 ∧ win0_2.index t (2 : Fin 3) = 0
      ∧ win0_3.index t (0 : Fin 3) = t.val / 64 ∧ win0_3.index t (1 : Fin 3) = 0 ∧ win0_3.index t (2 : Fin 3) = 0 :=
  (by decide +kernel : ∀ t : Fin grid0.N, _)

/-- The last point of group g is a point of the grid. -/
theorem last_lt0 (g : ℕ) (hg : g < 2) : 64 * g + 63 < cfg0.N :=
  lt_of_lt_of_eq (by omega : 64 * g + 63 < 128) N_0.symm

/-- An index of the first result is in point t's block iff each coordinate is in the block's range on its axis. -/
theorem mem_blk0_2 (t : Fin cfg0.N) (i : S2x4x4096.Idx) :
    i ∈ ((cfg0.win 2).blk t).view.set ↔ ∀ a : Fin 3, win0_2.index t a * S1x4x4096.size a ≤ (i a).val
      ∧ (i a).val < win0_2.index t a * S1x4x4096.size a + S1x4x4096.size a := by
  show i ∈ ((View.whole main_v2_0).slice (win0_2.rect t)).set ↔ _
  rw [View.set_slice_whole, Rect.mem_set_unit]
  exact Iff.rfl

/-- The same for the second result. -/
theorem mem_blk0_3 (t : Fin cfg0.N) (i : S2x4x4096.Idx) :
    i ∈ ((cfg0.win 3).blk t).view.set ↔ ∀ a : Fin 3, win0_3.index t a * S1x4x4096.size a ≤ (i a).val
      ∧ (i a).val < win0_3.index t a * S1x4x4096.size a + S1x4x4096.size a := by
  show i ∈ ((View.whole main_v2_1).slice (win0_3.rect t)).set ↔ _
  rw [View.set_slice_whole, Rect.mem_set_unit]
  exact Iff.rfl

section Region0

variable (V : (c : Dev nD) → (b : Ref sig .tc) → Buf (Elt F) ((c : Thread nD τ).loc b))

/-- The accumulation at two spellings of one position. -/
theorem outsAt0_congr (c : Dev nD) {n n' : ℕ} (h : n = n') (hn : n < cfg0.N) (hn' : n' < cfg0.N) :
    outsAt0 V c n hn = outsAt0 V c n' hn' := by
  subst h; rfl

/-- The first result as one array: group g's rows are what the accumulation left after the group's last point. -/
def G0_2 (c : Dev nD) : S2x4x4096.Idx → Elt F .f32 := fun i =>
  (outsAt0 V c (64 * (i 0).val + 63) (last_lt0 _ (i 0).isLt)).1 (ix3 (0 : Fin 1) (i 1) (i 2))

/-- The second result as one array. -/
def G0_3 (c : Dev nD) : S2x4x4096.Idx → Elt F .f32 := fun i =>
  (outsAt0 V c (64 * (i 0).val + 63) (last_lt0 _ (i 0).isLt)).2 (ix3 (0 : Fin 1) (i 1) (i 2))

/-- What a writing-back point writes back for the first result is its block of that array. -/
theorem flushed0_2_eq (c : Dev nD) (t : Fin cfg0.N) (hf : (cfg0.win 2).flush t = true) :
    (dat0 V c).flushed 2 t = ((cfg0.win 2).blk t).view.read (Elt F) (G0_2 V c) := by
  have h63 : t.val % 64 = 63 := (flush0_2 t).mp hf
  have hN : t.val < 128 := lt_of_lt_of_eq t.isLt N_0
  obtain ⟨e0, e1, e2, -⟩ := idx0_out t
  show (cfg0.win 2).cut (grid0.coords t) ((dat0 V c).after 2 t) = _
  rw [after0_2]
  funext y
  obtain ⟨u, bb, n, rfl⟩ : ∃ (u : Fin 1) (bb : Fin 4) (n : Fin 4096), y = ix3 u bb n := ⟨y 0, y 1, y 2, eq_ix3 y⟩
  have hE : ((cfg0.win 2).blk t).view.emb (ix3 u bb n) = ix3 (⟨t.val / 64, by omega⟩ : Fin 2) bb n := by
    funext a; apply Fin.ext
    match a with
    | ⟨0, _⟩ => show win0_2.index t (0 : Fin 3) * 1 + 1 * u.val = t.val / 64; omega
    | ⟨1, _⟩ => show win0_2.index t (1 : Fin 3) * 4 + 1 * bb.val = bb.val; omega
    | ⟨2, _⟩ => show win0_2.index t (2 : Fin 3) * 4096 + 1 * n.val = n.val; omega
  show (outsAt0 V c t.val t.isLt).1 (ix3 u bb n) = G0_2 V c (((cfg0.win 2).blk t).view.emb (ix3 u bb n))
  rw [hE]
  have hu : u = 0 := Fin.ext (by omega)
  subst hu
  show (outsAt0 V c t.val t.isLt).1 (ix3 (0 : Fin 1) bb n)
    = (outsAt0 V c (64 * (t.val / 64) + 63) (last_lt0 _ (by omega))).1 (ix3 (0 : Fin 1) bb n)
  rw [outsAt0_congr V c (show 64 * (t.val / 64) + 63 = t.val by omega) _ t.isLt]

/-- The same for the second result. -/
theorem flushed0_3_eq (c : Dev nD) (t : Fin cfg0.N) (hf : (cfg0.win 3).flush t = true) :
    (dat0 V c).flushed 3 t = ((cfg0.win 3).blk t).view.read (Elt F) (G0_3 V c) := by
  have h63 : t.val % 64 = 63 := (flush0_3 t).mp hf
  have hN : t.val < 128 := lt_of_lt_of_eq t.isLt N_0
  obtain ⟨-, -, -, e0, e1, e2⟩ := idx0_out t
  show (cfg0.win 3).cut (grid0.coords t) ((dat0 V c).after 3 t) = _
  rw [after0_3]
  funext y
  obtain ⟨u, bb, n, rfl⟩ : ∃ (u : Fin 1) (bb : Fin 4) (n : Fin 4096), y = ix3 u bb n := ⟨y 0, y 1, y 2, eq_ix3 y⟩
  have hE : ((cfg0.win 3).blk t).view.emb (ix3 u bb n) = ix3 (⟨t.val / 64, by omega⟩ : Fin 2) bb n := by
    funext a; apply Fin.ext
    match a with
    | ⟨0, _⟩ => show win0_3.index t (0 : Fin 3) * 1 + 1 * u.val = t.val / 64; omega
    | ⟨1, _⟩ => show win0_3.index t (1 : Fin 3) * 4 + 1 * bb.val = bb.val; omega
    | ⟨2, _⟩ => show win0_3.index t (2 : Fin 3) * 4096 + 1 * n.val = n.val; omega
  show (outsAt0 V c t.val t.isLt).2 (ix3 u bb n) = G0_3 V c (((cfg0.win 3).blk t).view.emb (ix3 u bb n))
  rw [hE]
  have hu : u = 0 := Fin.ext (by omega)
  subst hu
  show (outsAt0 V c t.val t.isLt).2 (ix3 (0 : Fin 1) bb n)
    = (outsAt0 V c (64 * (t.val / 64) + 63) (last_lt0 _ (by omega))).2 (ix3 (0 : Fin 1) bb n)
  rw [outsAt0_congr V c (show 64 * (t.val / 64) + 63 = t.val by omega) _ t.isLt]

/-- Every entry of the first result lies in the block its group's last point writes back. -/
theorem cover0_2 (i : S2x4x4096.Idx) :
    ∃ t : Fin cfg0.N, (cfg0.win 2).flush t = true ∧ i ∈ ((cfg0.win 2).blk t).view.set := by
  have hi0 : (i 0).val < 2 := (i 0).isLt
  have hi1 : (i 1).val < 4 := (i 1).isLt
  have hi2 : (i 2).val < 4096 := (i 2).isLt
  obtain ⟨t, ht⟩ : ∃ t : Fin cfg0.N, t.val = 64 * (i 0).val + 63 := ⟨⟨_, last_lt0 _ hi0⟩, rfl⟩
  obtain ⟨e0, e1, e2, -⟩ := idx0_out t
  refine ⟨t, (flush0_2 t).mpr (by omega), ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4 ≤ (i 1).val ∧ (i 1).val < win0_2.index t (1 : Fin 3) * 4 + 4; omega
  | ⟨2, _⟩ => show win0_2.index t (2 : Fin 3) * 4096 ≤ (i 2).val ∧ (i 2).val < win0_2.index t (2 : Fin 3) * 4096 + 4096; omega

/-- The same for the second result. -/
theorem cover0_3 (i : S2x4x4096.Idx) :
    ∃ t : Fin cfg0.N, (cfg0.win 3).flush t = true ∧ i ∈ ((cfg0.win 3).blk t).view.set := by
  have hi0 : (i 0).val < 2 := (i 0).isLt
  have hi1 : (i 1).val < 4 := (i 1).isLt
  have hi2 : (i 2).val < 4096 := (i 2).isLt
  obtain ⟨t, ht⟩ : ∃ t : Fin cfg0.N, t.val = 64 * (i 0).val + 63 := ⟨⟨_, last_lt0 _ hi0⟩, rfl⟩
  obtain ⟨-, -, -, e0, e1, e2⟩ := idx0_out t
  refine ⟨t, (flush0_3 t).mpr (by omega), ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4 ≤ (i 1).val ∧ (i 1).val < win0_3.index t (1 : Fin 3) * 4 + 4; omega
  | ⟨2, _⟩ => show win0_3.index t (2 : Fin 3) * 4096 ≤ (i 2).val ∧ (i 2).val < win0_3.index t (2 : Fin 3) * 4096 + 4096; omega

/-- THE FIRST RESULT after the run: entry (g, b', n) is entry (0, b', n) of what the accumulation left after the
    last point of group g. -/
theorem arrAt0_2 (c : Dev nD) (g : Fin 2) (bb : Fin 4) (n : Fin 4096) :
    (dat0 V c).arrAt 2 cfg0.N (ix3 g bb n)
      = (outsAt0 V c (64 * g.val + 63) (last_lt0 g.val g.isLt)).1 (ix3 (0 : Fin 1) bb n) :=
  (congrFun ((dat0 V c).arrAt_eq_of_cover 2 (G0_2 V c) (flushed0_2_eq V c) cover0_2) (ix3 g bb n)).trans rfl

/-- THE SECOND RESULT after the run. -/
theorem arrAt0_3 (c : Dev nD) (g : Fin 2) (bb : Fin 4) (n : Fin 4096) :
    (dat0 V c).arrAt 3 cfg0.N (ix3 g bb n)
      = (outsAt0 V c (64 * g.val + 63) (last_lt0 g.val g.isLt)).2 (ix3 (0 : Fin 1) bb n) :=
  (congrFun ((dat0 V c).arrAt_eq_of_cover 3 (G0_3 V c) (flushed0_3_eq V c) cover0_3) (ix3 g bb n)).trans rfl

end Region0

/-! ## The second kernel's result -/

theorem hz2 : (![0, 0] : Fin 2 → ℕ) = fun _ => 0 := by
  funext a; fin_cases a <;> rfl

/-- At the second kernel's one point every window's block index is zero on both axes. -/
theorem idx1 : ∀ t : Fin cfg1.N,
    win1_0.index t (0 : Fin 2) = 0 ∧ win1_0.index t (1 : Fin 2) = 0
      ∧ win1_1.index t (0 : Fin 2) = 0 ∧ win1_1.index t (1 : Fin 2) = 0
      ∧ win1_2.index t (0 : Fin 2) = 0 ∧ win1_2.index t (1 : Fin 2) = 0 :=
  (by decide +kernel : ∀ t : Fin grid1.N, _)

section Region1

variable (V : (c : Dev nD) → (b : Ref sig .tc) → Buf (Elt F) ((c : Thread nD τ).loc b))

/-- The first input window's block is the whole first array. -/
theorem iblk1_0_eq (c : Dev nD) (t : Fin cfg1.N) : iblk1 V c 0 t = (V c main_v3 : Vec F S8x4096 .f32) := by
  obtain ⟨e0, e1, -⟩ := idx1 t
  unfold iblk1
  funext y
  obtain ⟨p, q, rfl⟩ : ∃ (p : Fin 8) (q : Fin 4096), y = ix2 p q := ⟨y 0, y 1, eq_ix2 y⟩
  show V c main_v3 (((cfg1.win 0).blk t).view.emb (ix2 p q)) = V c main_v3 (ix2 p q)
  refine congrArg _ (funext fun a => Fin.ext ?_)
  match a with
  | ⟨0, _⟩ => show win1_0.index t (0 : Fin 2) * 8 + 1 * p.val = p.val; omega
  | ⟨1, _⟩ => show win1_0.index t (1 : Fin 2) * 4096 + 1 * q.val = q.val; omega

/-- The second input window's block is the whole second array. -/
theorem iblk1_1_eq (c : Dev nD) (t : Fin cfg1.N) : iblk1 V c 1 t = (V c main_v4 : Vec F S8x4096 .f32) := by
  obtain ⟨-, -, e0, e1, -⟩ := idx1 t
  unfold iblk1
  funext y
  obtain ⟨p, q, rfl⟩ : ∃ (p : Fin 8) (q : Fin 4096), y = ix2 p q := ⟨y 0, y 1, eq_ix2 y⟩
  show V c main_v4 (((cfg1.win 1).blk t).view.emb (ix2 p q)) = V c main_v4 (ix2 p q)
  refine congrArg _ (funext fun a => Fin.ext ?_)
  match a with
  | ⟨0, _⟩ => show win1_1.index t (0 : Fin 2) * 8 + 1 * p.val = p.val; omega
  | ⟨1, _⟩ => show win1_1.index t (1 : Fin 2) * 4096 + 1 * q.val = q.val; omega

/-- What the point writes back is the whole result: the body's value of the two arrays. -/
theorem flushed1_2_eq (c : Dev nD) (t : Fin cfg1.N) :
    (dat1 V c).flushed 2 t = ((cfg1.win 2).blk t).view.read (Elt F)
      (k1_pay1 (V c main_v3 : Vec F S8x4096 .f32) (V c main_v4 : Vec F S8x4096 .f32)) := by
  obtain ⟨-, -, -, -, e0, e1⟩ := idx1 t
  show (cfg1.win 2).cut (grid1.coords t) ((dat1 V c).after 2 t) = _
  rw [after1_2, iblk1_0_eq, iblk1_1_eq]
  unfold out1_2
  rw [View.canon_unit_zero hz2]
  simp only [View.ld_unit_zero (S := S8x4096) hz2]
  funext y
  obtain ⟨p, q, rfl⟩ : ∃ (p : Fin 1) (q : Fin 1), y = ix2 p q := ⟨y 0, y 1, eq_ix2 y⟩
  show k1_pay1 (V c main_v3 : Vec F S8x4096 .f32) (V c main_v4 : Vec F S8x4096 .f32) (ix2 p q)
    = k1_pay1 (V c main_v3 : Vec F S8x4096 .f32) (V c main_v4 : Vec F S8x4096 .f32) (((cfg1.win 2).blk t).view.emb (ix2 p q))
  refine congrArg _ (funext fun a => Fin.ext ?_)
  match a with
  | ⟨0, _⟩ => show p.val = win1_2.index t (0 : Fin 2) * 1 + 1 * p.val; omega
  | ⟨1, _⟩ => show q.val = win1_2.index t (1 : Fin 2) * 1 + 1 * q.val; omega

/-- An index of the result is in the point's block iff each coordinate is in the block's range on its axis. -/
theorem mem_blk1_2 (t : Fin cfg1.N) (i : S1x1.Idx) :
    i ∈ ((cfg1.win 2).blk t).view.set ↔ ∀ a : Fin 2, win1_2.index t a * S1x1.size a ≤ (i a).val
      ∧ (i a).val < win1_2.index t a * S1x1.size a + S1x1.size a := by
  show i ∈ ((View.whole main_v5).slice (win1_2.rect t)).set ↔ _
  rw [View.set_slice_whole, Rect.mem_set_unit]
  exact Iff.rfl

/-- The one point's block is the whole result. -/
theorem cover1_2_arr (i : S1x1.Idx) :
    ∃ t : Fin cfg1.N, (cfg1.win 2).flush t = true ∧ i ∈ ((cfg1.win 2).blk t).view.set := by
  have hi0 : (i 0).val < 1 := (i 0).isLt
  have hi1 : (i 1).val < 1 := (i 1).isLt
  obtain ⟨-, -, -, -, e0, e1⟩ := idx1 t1_0
  refine ⟨t1_0, flush1_2 t1_0, ?_⟩
  rw [mem_blk1_2]
  intro a
  match a with
  | ⟨0, _⟩ => show win1_2.index t1_0 (0 : Fin 2) * 1 ≤ (i 0).val ∧ (i 0).val < win1_2.index t1_0 (0 : Fin 2) * 1 + 1; omega
  | ⟨1, _⟩ => show win1_2.index t1_0 (1 : Fin 2) * 1 ≤ (i 1).val ∧ (i 1).val < win1_2.index t1_0 (1 : Fin 2) * 1 + 1; omega

/-- THE RESULT after the run: the body's value of the two whole arrays as the region finds them. -/
theorem arrAt1_2 (c : Dev nD) (j : S1x1.Idx) :
    (dat1 V c).arrAt 2 cfg1.N j = k1_pay1 (V c main_v3 : Vec F S8x4096 .f32) (V c main_v4 : Vec F S8x4096 .f32) j :=
  congrFun ((dat1 V c).arrAt_eq_of_cover 2 (k1_pay1 (V c main_v3 : Vec F S8x4096 .f32) (V c main_v4 : Vec F S8x4096 .f32))
    (fun t _ => flushed1_2_eq V c t) (cover1_2_arr)) j

end Region1

end Cert.KernelIdeal.Hand

end
-- ==== Proof.LibFoldInf.lean ====
/-
  Folds of min and max over a finite index type, from the float words of +∞ and −∞, as an infimum and a supremum.

  On the extended reals the float word 0x7F800000 is the greatest element and 0xFF800000 the least, so a fold of
  `min` from the first over all of `Fin n` is the infimum of the family and a fold of `max` from the second its
  supremum. Nothing here needs the entries to be real numbers.
-/
import Idealize.ShloMosaic.PureOps.Ideal.Laws

noncomputable section

namespace Cert.FoldInf

open Idealize.ShloMosaic

/-- The float word of plus infinity is the greatest extended real. -/
theorem ofBits_pos_inf : Ideal.ofBits .f32 0x7F800000#32 = ⊤ := by
  simp [Ideal.ofBits, Ideal.ieee]

/-- The float word of minus infinity is the least extended real. -/
theorem ofBits_neg_inf : Ideal.ofBits .f32 0xFF800000#32 = ⊥ := by
  simp [Ideal.ofBits, Ideal.ieee]

/-- A fold of `min` from the greatest element over a finite set is the infimum over the set. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- A fold of `max` from the least element over a finite set is the supremum over the set. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- The fold of `min` from the word of +∞ over `Fin n` is the infimum of the family. -/
theorem fold_min_eq_iInf {n : ℕ} (f : Fin n → EReal) :
    (Finset.univ : Finset (Fin n)).fold min (Ideal.ofBits .f32 0x7F800000#32) f = ⨅ i, f i := by
  rw [ofBits_pos_inf, fold_min_top, Finset.inf_univ_eq_iInf]

/-- The fold of `max` from the word of −∞ over `Fin n` is the supremum of the family. -/
theorem fold_max_eq_iSup {n : ℕ} (f : Fin n → EReal) :
    (Finset.univ : Finset (Fin n)).fold max (Ideal.ofBits .f32 0xFF800000#32) f = ⨆ i, f i := by
  rw [ofBits_neg_inf, fold_max_bot, Finset.sup_univ_eq_iSup]

end Cert.FoldInf

end
-- ==== Proof.LibUnitAxes.lean ====
/-
  Arrays re-read with a unit axis added, and a unit axis spread over many coordinates.

  Viewing an array with one more axis of extent one moves no entry: the new array at an index is the old array at the
  index with that axis left out. Broadcasting along an axis of extent one repeats the one entry there at every
  coordinate of the longer axis. Both are stated index by index, the indices written by their coordinates.
-/
import Idealize.ShloMosaic.Lib.ValueLayout

namespace Cert.UnitAxes

open Idealize.ShloMosaic Idealize.ShloMosaic.ValueIdx

variable {α : Type}

/-- An `[a]` array viewed as `[a, 1]` reads, at `(i, u)`, the array at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array viewed as `[a, b, 1]` reads, at `(i, j, u)`, the array at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array viewed as `[a, 1, b]` reads, at `(i, u, j)`, the array at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array spread to `[a, b, c]` reads, at `(i, j, k)`, its one entry at `(i, j)`. -/
theorem broadcastTo_ab1_abc_apply {a b c : ℕ} (ha : a ≠ 1) (hb : b ≠ 1) (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

/-- An `[a, 1, c]` array spread to `[a, b, c]` reads, at `(i, j, k)`, its one entry at `(i, k)`. -/
theorem broadcastTo_a1c_abc_apply {a b c : ℕ} (ha : a ≠ 1) (hc : c ≠ 1) (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => show i.val = if a = 1 then 0 else i.val; rw [if_neg ha]
  | ⟨1, _⟩ => rfl
  | ⟨2, _⟩ => show k.val = if c = 1 then 0 else k.val; rw [if_neg hc]

end Cert.UnitAxes
-- ==== Proof.PayDist.lean ====
/-
  The tile of squared distances the first kernel forms, read at an index.

  For cloud bb of the tile, row point r of the first family and column point c of the second, the entry is the sum of
  the two squared norms less twice the inner product: each squared norm a sum of three squares taken along the last
  axis and then repeated along a row or a column, the inner product one entry of a batched product of the two tiles
  that contracts their last axes.
-/
import proofs.«107834_j61194694033712_2_alg».proof.Proof.Gen.KernelIdeal.Skeleton
import proofs.«107834_j61194694033712_2_alg».proof.Proof.LibFoldInf
import Idealize.ShloMosaic.Lib.ValueIdx
import Idealize.ShloMosaic.Lib.Pipeline.Value
import Idealize.ShloMosaic.Lib.ValueLayout
import Idealize.ShloMosaic.PureOps.Ideal.Laws
import proofs.«107834_j61194694033712_2_alg».proof.Proof.LibUnitAxes

noncomputable section

namespace Cert.KernelIdeal.Pay

open Cert.KernelIdeal Cert.KernelIdeal.Gen Idealize.ShloMosaic Idealize.ShloMosaic.ValueIdx

/-- The dimension numbers of the batched product: batch axis 0 of both, contracting axis 2 of both. -/
abbrev DD : DotDims S4x512x3 S4x512x3 S4x512x512 := dot_S4x512x3_S4x512x3_S4x512x512_2_2_1_1_0_0

/-! ## The operand indices of the batched product -/

theorem lhs_0 (i : S4x512x512.Idx) (q : DD.contr.Idx) : (DD.lhsIdx i q 0).val = (i 0).val := by
  unfold DotDims.lhsIdx
  rw [dif_pos (show (0 : Fin S4x512x3.rank) ∈ DD.lhsBatch by decide)]
  rfl
theorem lhs_1 (i : S4x512x512.Idx) (q : DD.contr.Idx) : (DD.lhsIdx i q 1).val = (i 1).val := by
  unfold DotDims.lhsIdx
  rw [dif_neg (show ¬(1 : Fin S4x512x3.rank) ∈ DD.lhsBatch by decide),
    dif_pos (show (1 : Fin S4x512x3.rank) ∈ DD.lhsNonContracting by decide)]
  rfl
theorem lhs_2 (i : S4x512x512.Idx) (q : DD.contr.Idx) : (DD.lhsIdx i q 2).val = (q ⟨0, by decide⟩).val :=
  DD.lhsIdx_val_of_single rfl i q
theorem rhs_0 (i : S4x512x512.Idx) (q : DD.contr.Idx) : (DD.rhsIdx i q 0).val = (i 0).val := by
  unfold DotDims.rhsIdx
  rw [dif_pos (show (0 : Fin S4x512x3.rank) ∈ DD.rhsBatch by decide)]
  rfl
theorem rhs_1 (i : S4x512x512.Idx) (q : DD.contr.Idx) : (DD.rhsIdx i q 1).val = (i 2).val := by
  unfold DotDims.rhsIdx
  rw [dif_neg (show ¬(1 : Fin S4x512x3.rank) ∈ DD.rhsBatch by decide),
    dif_pos (show (1 : Fin S4x512x3.rank) ∈ DD.rhsNonContracting by decide)]
  rfl
theorem rhs_2 (i : S4x512x512.Idx) (q : DD.contr.Idx) : (DD.rhsIdx i q 2).val = (q ⟨0, by decide⟩).val :=
  DD.rhsIdx_val_of_single rfl i q

/-- The batched product into the zero array, at `(bb, r, c)`: the inner product of row `r` of the left tile with row
    `c` of the right one, in cloud `bb`. -/
theorem matmul_tile_apply (A B : FVec Ideal S4x512x3 .f32) (prec : Option ContractPrecision) (bb : Fin 4) (r c : Fin 512) :
    matmul DD prec A B (constant S4x512x512 .f32 0x00000000#32) (ix3 bb r c)
      = ∑ k : Fin 3, A (ix3 bb r k) * B (ix3 bb c k) := by
  refine (Ideal.matmul_constant_zero_apply DD prec A B (ix3 bb r c)).trans ?_
  rw [← Equiv.sum_comp (contrEquiv1 DD 3 rfl rfl).symm]
  refine Finset.sum_congr rfl fun k _ => ?_
  have hk := contrEquiv1_symm_val DD 3 rfl rfl k
  have el : DD.lhsIdx (ix3 bb r c) ((contrEquiv1 DD 3 rfl rfl).symm k) = ix3 bb r k := funext fun a => Fin.ext (by
    match a with
    | ⟨0, _⟩ => exact lhs_0 _ _
    | ⟨1, _⟩ => exact lhs_1 _ _
    | ⟨2, _⟩ => exact (lhs_2 _ _).trans hk)
  have er : DD.rhsIdx (ix3 bb r c) ((contrEquiv1 DD 3 rfl rfl).symm k) = ix3 bb c k := funext fun a => Fin.ext (by
    match a with
    | ⟨0, _⟩ => exact rhs_0 _ _
    | ⟨1, _⟩ => exact rhs_1 _ _
    | ⟨2, _⟩ => exact (rhs_2 _ _).trans hk)
  rw [el, er]

/-- The sum of squares along the last axis, at `(bb, r)`. -/
theorem sqsum_apply (y : FVec Ideal S4x512x3 .f32) (hφ : FKind.Formats .f32)
    (hacc : (0x00000000#32 : BitVec 32) = FKind.add.neutral .f32 hφ) (bb : Fin 4) (r : Fin 512) :
    multiReduction (F := Ideal) (φ := .f32) .add [2] S4x512 (mulf y y) 0x00000000#32 reduces_S4x512x3_S4x512 hφ hacc (ix2 bb r)
      = ∑ k : Fin 3, y (ix3 bb r k) * y (ix3 bb r k) := by
  refine (Ideal.multiReduction_add_single (mulf y y) 0x00000000#32 reduces_S4x512x3_S4x512 hφ hacc (ix2 bb r)).trans ?_
  show (∑ k : Fin 3, mulf y y (reduces_S4x512x3_S4x512.lift (ix2 bb r) k)) = _
  refine Finset.sum_congr rfl fun k _ => ?_
  have hl : reduces_S4x512x3_S4x512.lift (ix2 bb r) k = ix3 bb r k := funext fun a => Fin.ext (by
    match a with
    | ⟨0, _⟩ => rfl
    | ⟨1, _⟩ => rfl
    | ⟨2, _⟩ => rfl)
  exact (congrArg (mulf y y) hl).trans (mulf_apply y y _)

/-- The squared distance of the tile at `(bb, r, c)`. -/
theorem pay5_apply (x0 x1 : Vec Ideal S1x4x512x3 .f32) (bb : Fin 4) (r c : Fin 512) :
    k0_pay5 (F := Ideal) x0 x1 (ix3 bb r c)
      = ((∑ k : Fin 3, x0 (ix4 (0 : Fin 1) bb r k) * x0 (ix4 (0 : Fin 1) bb r k))
          + (∑ k : Fin 3, x1 (ix4 (0 : Fin 1) bb c k) * x1 (ix4 (0 : Fin 1) bb c k)))
        - Ideal.ofBits .f32 0x40000000#32 * (∑ k : Fin 3, x0 (ix4 (0 : Fin 1) bb r k) * x1 (ix4 (0 : Fin 1) bb c k)) := by
  have t0 : ∀ (p : Fin 512) (k : Fin 3),
      shapeCast S4x512x3 x0 shapeCasts_S1x4x512x3_S4x512x3 (ix3 bb p k) = x0 (ix4 (0 : Fin 1) bb p k) :=
    fun p k => shapeCast_1abc_abc_apply x0 shapeCasts_S1x4x512x3_S4x512x3 bb p k
  have t1 : ∀ (p : Fin 512) (k : Fin 3),
      shapeCast S4x512x3 x1 shapeCasts_S1x4x512x3_S4x512x3 (ix3 bb p k) = x1 (ix4 (0 : Fin 1) bb p k) :=
    fun p k => shapeCast_1abc_abc_apply x1 shapeCasts_S1x4x512x3_S4x512x3 bb p k
  unfold k0_pay5
  refine (subf_apply _ _ _).trans ?_
  refine congrArg₂ (· - ·) ?_ ?_
  · refine (addf_apply _ _ _).trans ?_
    refine congrArg₂ (· + ·) ?_ ?_
    · refine (Cert.UnitAxes.broadcastTo_ab1_abc_apply (by decide) (by decide) _ broadcasts_S4x512x1_S4x512x512 bb r c).trans ?_
      refine (Cert.UnitAxes.shapeCast_ab_ab1_apply _ shapeCasts_S4x512_S4x512x1 bb r 0).trans ?_
      refine (sqsum_apply _ _ _ bb r).trans ?_
      exact Finset.sum_congr rfl fun k _ => by rw [t0 r k]
    · refine (Cert.UnitAxes.broadcastTo_a1c_abc_apply (by decide) (by decide) _ broadcasts_S4x1x512_S4x512x512 bb r c).trans ?_
      refine (Cert.UnitAxes.shapeCast_ab_a1b_apply _ shapeCasts_S4x512_S4x1x512 bb 0 c).trans ?_
      refine (sqsum_apply _ _ _ bb c).trans ?_
      exact Finset.sum_congr rfl fun k _ => by rw [t1 c k]
  · refine (mulf_apply _ _ _).trans ?_
    refine congrArg₂ (· * ·) rfl ?_
    refine (matmul_tile_apply _ _ _ bb r c).trans ?_
    exact Finset.sum_congr rfl fun k _ => by rw [t0 r k, t1 c k]

end Cert.KernelIdeal.Pay

end
-- ==== Proof.LibVecMinMax.lean ====
/-
  A minimum or maximum taken along one axis of an array of extended reals, read at an index.

  Reducing an array along one axis with `min`, from the float word of +∞, leaves at each remaining index the infimum of
  the entries along that axis; with `max`, from the word of −∞, their supremum. The entry with coordinate k on the
  reduced axis over the remaining index j is the array at `h.lift j k`: j with k inserted on that axis.
-/
import Idealize.ShloMosaic.PureOps.Ideal.Laws
import proofs.«107834_j61194694033712_2_alg».proof.Proof.LibFoldInf

noncomputable section

namespace Cert.VecMinMax

open Idealize.ShloMosaic

variable {φ : FTy}

/-- A minimum along one axis is the fold of `min`, from the initial word's value, over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the word of +∞ a minimum along one axis is the infimum of the entries along it. -/
theorem minimumf_single_eq_iInf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) :=
  (multiReduction_minimumf_single src _ h hφ hacc j).trans (Cert.FoldInf.fold_min_eq_iInf (src ∘ h.lift j))

/-- From the word of −∞ a maximum along one axis is the supremum of the entries along it. -/
theorem maximumf_single_eq_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) :=
  (Ideal.multiReduction_maximumf_single src _ h hφ hacc j).trans (Cert.FoldInf.fold_max_eq_iSup (src ∘ h.lift j))

end Cert.VecMinMax

end
-- ==== Proof.PayMin.lean ====
/-
  The two minima the first kernel takes of its tile of squared distances, read at an index.

  Along the rows of the tile (over the row points r, for each column point c) the minimum from +∞ is the infimum of the
  column; along the columns it is the infimum of the row, which then lowers the running minimum read from memory.
-/
import proofs.«107834_j61194694033712_2_alg».proof.Proof.Gen.KernelIdeal.Skeleton
import proofs.«107834_j61194694033712_2_alg».proof.Proof.LibFoldInf
import Idealize.ShloMosaic.Lib.ValueIdx
import Idealize.ShloMosaic.Lib.Pipeline.Value
import Idealize.ShloMosaic.Lib.ValueLayout
import Idealize.ShloMosaic.PureOps.Ideal.Laws
import proofs.«107834_j61194694033712_2_alg».proof.Proof.LibVecMinMax

noncomputable section

namespace Cert.KernelIdeal.Pay

open Cert.KernelIdeal Cert.KernelIdeal.Gen Idealize.ShloMosaic Idealize.ShloMosaic.ValueIdx

/-- The minimum over the row points: at `(bb, c)` the infimum over `r` of the tile's entries `(bb, r, c)`. -/
theorem pay6_apply (x0 x1 : Vec Ideal S1x4x512x3 .f32) (bb : Fin 4) (c : Fin 512) :
    k0_pay6 (F := Ideal) x0 x1 (ix2 bb c) = ⨅ r : Fin 512, k0_pay5 (F := Ideal) x0 x1 (ix3 bb r c) := by
  unfold k0_pay6
  generalize k0_pay5 (F := Ideal) x0 x1 = T
  refine (Cert.VecMinMax.minimumf_single_eq_iInf T reduces_S4x512x512_S4x512_2 _ _ (ix2 bb c)).trans ?_
  show (⨅ r : Fin 512, T (reduces_S4x512x512_S4x512_2.lift (ix2 bb c) r)) = _
  refine iInf_congr fun r => congrArg T (funext fun a => Fin.ext ?_)
  match a with
  | ⟨0, _⟩ => rfl
  | ⟨1, _⟩ => rfl
  | ⟨2, _⟩ => rfl

/-- The running minimum over the column points: at `(bb, r)` the value read from memory lowered by the infimum over
    `c` of the tile's entries `(bb, r, c)`. -/
theorem pay7_apply (x0 x1 : Vec Ideal S1x4x512x3 .f32) (v29 : Vec Ideal S1x4x512 .f32) (bb : Fin 4) (r : Fin 512) :
    k0_pay7 (F := Ideal) x0 x1 v29 (ix2 bb r)
      = min (v29 (ix3 (0 : Fin 1) bb r)) (⨅ c : Fin 512, k0_pay5 (F := Ideal) x0 x1 (ix3 bb r c)) := by
  unfold k0_pay7
  generalize k0_pay5 (F := Ideal) x0 x1 = T
  refine (minimumf_apply _ _ _).trans ?_
  refine congrArg₂ min (shapeCast_1ab_ab_apply v29 shapeCasts_S1x4x512_S4x512 bb r) ?_
  refine (Cert.VecMinMax.minimumf_single_eq_iInf T reduces_S4x512x512_S4x512 _ _ (ix2 bb r)).trans ?_
  show (⨅ c : Fin 512, T (reduces_S4x512x512_S4x512.lift (ix2 bb r) c)) = _
  refine iInf_congr fun c => congrArg T (funext fun a => Fin.ext ?_)
  match a with
  | ⟨0, _⟩ => rfl
  | ⟨1, _⟩ => rfl
  | ⟨2, _⟩ => rfl

end Cert.KernelIdeal.Pay

end
-- ==== Proof.PayStore.lean ====
/-
  The stored values of the first kernel, read at an index.

  Two of the values the kernel stores are running minima re-viewed with a leading axis of extent one, which moves no
  entry; the other two are the constant +∞ that both running minima start from.
-/
import proofs.«107834_j61194694033712_2_alg».proof.Proof.Gen.KernelIdeal.Skeleton
import proofs.«107834_j61194694033712_2_alg».proof.Proof.LibFoldInf
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The stored row minima are the row minima, entry for entry. -/
theorem pay1_apply (v31 : FVec Ideal S4x512 .f32) (bb : Fin 4) (r : Fin 512) :
    k0_pay1 (F := Ideal) v31 (ix3 (0 : Fin 1) bb r) = v31 (ix2 bb r) := by
  unfold k0_pay1
  exact shapeCast_ab_1ab_apply v31 shapeCasts_S4x512_S1x4x512 0 bb r

/-- The stored column minima are the earlier stored value lowered by the tile's column minima, entry for entry. -/
theorem pay2_apply (v23 : FVec Ideal S4x512 .f32) (v37 : Vec Ideal S1x4x512 .f32) (bb : Fin 4) (c : Fin 512) :
    k0_pay2 (F := Ideal) v23 v37 (ix3 (0 : Fin 1) bb c) = min (v37 (ix3 (0 : Fin 1) bb c)) (v23 (ix2 bb c)) := by
  unfold k0_pay2
  refine (shapeCast_ab_1ab_apply _ shapeCasts_S4x512_S1x4x512 0 bb c).trans ?_
  refine (minimumf_apply _ _ _).trans ?_
  exact congrArg (min · (v23 (ix2 bb c))) (shapeCast_1ab_ab_apply v37 shapeCasts_S1x4x512_S4x512 bb c)

/-- The first running minimum starts from +∞ everywhere. -/
theorem pay3_apply (j : S1x4x4096.Idx) : k0_pay3 (F := Ideal) j = ⊤ := by
  unfold k0_pay3
  obtain ⟨u, b, n, rfl⟩ : ∃ (u : Fin 1) (b : Fin 4) (n : Fin 4096), j = ix3 u b n := ⟨j 0, j 1, j 2, eq_ix3 j⟩
  refine (shapeCast_ab_1ab_apply _ shapeCasts_S4x4096_S1x4x4096 u b n).trans ?_
  exact Cert.FoldInf.ofBits_pos_inf

/-- The second running minimum starts from +∞ everywhere. -/
theorem pay4_apply (j : S1x4x4096.Idx) : k0_pay4 (F := Ideal) j = ⊤ := by
  unfold k0_pay4
  obtain ⟨u, b, n, rfl⟩ : ∃ (u : Fin 1) (b : Fin 4) (n : Fin 4096), j = ix3 u b n := ⟨j 0, j 1, j 2, eq_ix3 j⟩
  refine (shapeCast_ab_1ab_apply _ shapeCasts_S4x4096_S1x4x4096 u b n).trans ?_
  exact Cert.FoldInf.ofBits_pos_inf

end Cert.KernelIdeal.Pay

end
-- ==== Proof.KI.OutReads.lean ====
/-
  What the first kernel's two output blocks hold after a grid point, read at an index, at the ideal values.

  At point t = 64 g + 8 i + j the body takes the tile's squared distances D (4 clouds × 512 × 512, from the two input
  blocks), and: in the first output block, columns of tile i become the minimum of what they held and the row minima
  of D; in the second, columns of tile j the minimum of what they held and the column minima of D; every other column
  keeps what it held — which at the first point of a group is +∞ everywhere, the block having just been filled.
-/
import proofs.«107834_j61194694033712_2_alg».proof.Proof.KI.R0
import proofs.«107834_j61194694033712_2_alg».proof.Proof.PayDist
import proofs.«107834_j61194694033712_2_alg».proof.Proof.PayMin
import proofs.«107834_j61194694033712_2_alg».proof.Proof.PayStore
import proofs.«107834_j61194694033712_2_alg».proof.Proof.LibFoldInf
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.KernelIdeal.Pay

/-! ## Loads from a whole buffer -/

section Loads

variable {sig' : RefSig} {κ : Kind} {sp : Space} {S : Shape} {e : EltTy} {Val : EltTy → Type}

/-- A whole buffer holding X, read through the rectangle that is all of it, reads X. -/
theorem readAt_all_unread (m : Memref sig' κ sp S e) (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  refine (View.readAt_eq_ld m.view (h.unread X) (Rect.unit off S.size inb)).trans ?_
  rw [h.read_unread]
  exact View.ld_unit_zero hz inb X

/-- A whole buffer holding X, read through a rectangle of consecutive coordinates from `off`, reads at `x` the
    entry of X at `off + x`. -/
theorem readAt_unit_unread (m : Memref sig' κ sp S e) (h : m.IsWhole) {off off' size : Fin S.rank → ℕ}
    (inb : ∀ a, off a + size a ≤ S.size a) (X : S.Idx → Val e) (x : (Rect.unit off size inb).shape.Idx) (y : S.Idx)
    (heq : off = off') (hx : ∀ a, (y a).val = off' a + (x a).val) :
    View.readAt Val m.view (Rect.unit off size inb).toLoadRect (h.unread X) x = X y := by
  subst heq
  refine (congrFun (View.readAt_eq_ld m.view (h.unread X) (Rect.unit off size inb)) x).trans ?_
  rw [h.read_unread]
  refine congrArg X (funext fun a => Fin.ext ?_)
  show off a + 1 * (x a).val = (y a).val
  rw [hx a, Nat.one_mul]

end Loads

section Fill

variable {sig' : RefSig} {κ : Kind} {sp : Space} {S : Shape} {e : EltTy} {Val : EltTy → Type}

/-- After one store of `w` through the rectangle that is all of the buffer, whatever it held, the buffer reads `w`. -/
theorem read_fill (v : View sig' κ sp S e) (f : v.ty.Contents Val) {off0 : Fin S.rank → ℕ} (hz : off0 = fun _ => 0)
    (inb0 : ∀ a, off0 a + S.size a ≤ S.size a) (w : S.Idx → Val e) (y : S.Idx) :
    v.read Val (v.writes Val f [(⟨Rect.unit off0 S.size inb0, w⟩ : View.Piece Val S e)]) y = w y :=
  View.read_writes_cons_unit_of_mem v f inb0 w [] y y hz (fun a => (Nat.zero_add _).symm)

/-- So a read through a rectangle of consecutive coordinates from `off` reads at `x` the entry of `w` at `off + x`. -/
theorem readAt_unit_fill (v : View sig' κ sp S e) (f : v.ty.Contents Val) {off0 : Fin S.rank → ℕ} (hz : off0 = fun _ => 0)
    (inb0 : ∀ a, off0 a + S.size a ≤ S.size a) (w : S.Idx → Val e) {off off' size : Fin S.rank → ℕ}
    (inb : ∀ a, off a + size a ≤ S.size a) (x : (Rect.unit off size inb).shape.Idx) (y : S.Idx)
    (heq : off = off') (hx : ∀ a, (y a).val = off' a + (x a).val) :
    View.readAt Val v (Rect.unit off size inb).toLoadRect
      (v.writes Val f [(⟨Rect.unit off0 S.size inb0, w⟩ : View.Piece Val S e)]) x = w y := by
  subst heq
  have hy : (Rect.unit off size inb).toLoadRect.idx x = y := funext fun a => Fin.ext (by
    show off a + 1 * (x a).val = (y a).val
    rw [hx a, Nat.one_mul])
  refine (View.readAt_apply _ _ x).trans ?_
  rw [hy]
  exact read_fill v f hz inb0 w y

end Fill

theorem hz4 : (![0, 0, 0, 0] : Fin 4 → ℕ) = fun _ => 0 := by
  funext a; fin_cases a <;> rfl

/-! ## The tiles' offsets, from the point's number -/

/-- The row tile's columns start at 512 times the middle digit of the point's number. -/
theorem off1_eq : ∀ t : Fin cfg0.N, k0_off1 (grid0.coords t) = ![0, 0, (t.val / 8 % 8) * 512] :=
  (by decide +kernel : ∀ t : Fin grid0.N, k0_off1 (grid0.coords t) = ![0, 0, (t.val / 8 % 8) * 512])

/-- The column tile's columns start at 512 times the last digit of the point's number. -/
theorem off2_eq : ∀ t : Fin cfg0.N, k0_off2 (grid0.coords t) = ![0, 0, (t.val % 8) * 512] :=
  (by decide +kernel : ∀ t : Fin grid0.N, k0_off2 (grid0.coords t) = ![0, 0, (t.val % 8) * 512])

section

variable (V : (c : Dev nD) → (b : Ref sig .tc) → Buf (Elt Ideal) ((c : Thread nD τ).loc b))

/-- The two input blocks at a point, as vectors. -/
abbrev xin0 (c : Dev nD) (t : Fin cfg0.N) : Vec Ideal S1x4x512x3 .f32 := iblk0 V c 0 t
abbrev xin1 (c : Dev nD) (t : Fin cfg0.N) : Vec Ideal S1x4x512x3 .f32 := iblk0 V c 1 t

/-- The tile's squared distances at a point: cloud bb of the group, row r of the row tile, column q of the column tile. -/
abbrev tileD (c : Dev nD) (t : Fin cfg0.N) (bb : Fin 4) (r q : Fin 512) : EReal :=
  k0_pay5 (F := Ideal) (xin0 V c t) (xin1 V c t) (ix3 bb r q)

theorem outA_fst (c : Dev nD) (t : Fin cfg0.N) (h0 : t.val % 64 = 0) (bb : Fin 4) (n : Fin 4096) :
    (outA V c t h0).1 (ix3 (0 : Fin 1) bb n)
      = if n.val / 512 = t.val / 8 % 8 then ⨅ q : Fin 512, tileD V c t bb ⟨n.val % 512, Nat.mod_lt _ (by norm_num)⟩ q else ⊤ := by
  have hoff := off1_eq t
  unfold outA
  dsimp only
  unfold kernelRun0_A
  dsimp only
  sl_unfold_run_names
  by_cases hn : n.val / 512 = t.val / 8 % 8
  · rw [if_pos hn]
    refine (View.read_writes_cons_unit_of_mem _ _ _ _ _ (ix3 (0 : Fin 1) bb n)
      (ix3 (0 : Fin 1) bb (⟨n.val % 512, Nat.mod_lt _ (by norm_num)⟩ : Fin 512)) hoff (fun a => ?_)).trans ?_
    · match a with
      | ⟨0, _⟩ => rfl
      | ⟨1, _⟩ => exact (Nat.zero_add _).symm
      | ⟨2, _⟩ =>
        show n.val = t.val / 8 % 8 * 512 + n.val % 512
        omega
    refine (pay1_apply _ bb _).trans ?_
    refine (pay7_apply _ _ _ bb _).trans ?_
    rw [readAt_all_unread (ms0_0 t) (hs0_0 t) hz4, readAt_all_unread (ms0_1 t) (hs0_1 t) hz4]
    refine (congrArg (min · _) ?_).trans (min_top_left _)
    refine (readAt_unit_fill (ms0_2 t).view _ hz3 _ _ _ _ (ix3 (0 : Fin 1) bb n) hoff (fun a => ?_)).trans (pay3_apply _)
    match a with
    | ⟨0, _⟩ => rfl
    | ⟨1, _⟩ => exact (Nat.zero_add _).symm
    | ⟨2, _⟩ =>
      show n.val = t.val / 8 % 8 * 512 + n.val % 512
      omega
  · rw [if_neg hn]
    refine (View.read_writes_cons_unit_of_not_mem _ _ _ _ _ (ix3 (0 : Fin 1) bb n) hoff 2 ?_).trans ?_
    · show n.val < t.val / 8 % 8 * 512 ∨ t.val / 8 % 8 * 512 + 512 ≤ n.val
      omega
    exact (read_fill (ms0_2 t).view _ hz3 _ _ _).trans (pay3_apply _)

theorem outA_snd (c : Dev nD) (t : Fin cfg0.N) (h0 : t.val % 64 = 0) (bb : Fin 4) (n : Fin 4096) :
    (outA V c t h0).2 (ix3 (0 : Fin 1) bb n)
      = if n.val / 512 = t.val % 8 then ⨅ r : Fin 512, tileD V c t bb r ⟨n.val % 512, Nat.mod_lt _ (by norm_num)⟩ else ⊤ := by
  have hoff := off2_eq t
  unfold outA
  dsimp only
  unfold kernelRun0_A
  dsimp only
  sl_unfold_run_names
  by_cases hn : n.val / 512 = t.val % 8
  · rw [if_pos hn]
    refine (View.read_writes_cons_unit_of_mem _ _ _ _ _ (ix3 (0 : Fin 1) bb n)
      (ix3 (0 : Fin 1) bb (⟨n.val % 512, Nat.mod_lt _ (by norm_num)⟩ : Fin 512)) hoff (fun a => ?_)).trans ?_
    · match a with
      | ⟨0, _⟩ => rfl
      | ⟨1, _⟩ => exact (Nat.zero_add _).symm
      | ⟨2, _⟩ =>
        show n.val = t.val % 8 * 512 + n.val % 512
        omega
    refine (pay2_apply _ _ bb _).trans ?_
    refine (congrArg₂ min ?_ ?_).trans (min_top_left _)
    · refine (readAt_unit_fill (ms0_3 t).view _ hz3 _ _ _ _ (ix3 (0 : Fin 1) bb n) hoff (fun a => ?_)).trans (pay4_apply _)
      match a with
      | ⟨0, _⟩ => rfl
      | ⟨1, _⟩ => exact (Nat.zero_add _).symm
      | ⟨2, _⟩ =>
        show n.val = t.val % 8 * 512 + n.val % 512
        omega
    · refine (pay6_apply _ _ bb _).trans ?_
      rw [readAt_all_unread (ms0_0 t) (hs0_0 t) hz4, readAt_all_unread (ms0_1 t) (hs0_1 t) hz4]
  · rw [if_neg hn]
    refine (View.read_writes_cons_unit_of_not_mem _ _ _ _ _ (ix3 (0 : Fin 1) bb n) hoff 2 ?_).trans ?_
    · show n.val < t.val % 8 * 512 ∨ t.val % 8 * 512 + 512 ≤ n.val
      omega
    exact (read_fill (ms0_3 t).view _ hz3 _ _ _).trans (pay4_apply _)

theorem outB_fst (c : Dev nD) (t : Fin cfg0.N) (h0 : ¬t.val % 64 = 0) (xo : Vec Ideal S1x4x4096 .f32 × Vec Ideal S1x4x4096 .f32)
    (bb : Fin 4) (n : Fin 4096) :
    (outB V c t h0 xo).1 (ix3 (0 : Fin 1) bb n)
      = if n.val / 512 = t.val / 8 % 8
        then min (xo.1 (ix3 (0 : Fin 1) bb n)) (⨅ q : Fin 512, tileD V c t bb ⟨n.val % 512, Nat.mod_lt _ (by norm_num)⟩ q)
        else xo.1 (ix3 (0 : Fin 1) bb n) := by
  have hoff := off1_eq t
  unfold outB
  dsimp only
  unfold kernelRun0_B
  dsimp only
  sl_unfold_run_names
  by_cases hn : n.val / 512 = t.val / 8 % 8
  · rw [if_pos hn]
    refine (View.read_writes_cons_unit_of_mem _ _ _ _ _ (ix3 (0 : Fin 1) bb n)
      (ix3 (0 : Fin 1) bb (⟨n.val % 512, Nat.mod_lt _ (by norm_num)⟩ : Fin 512)) hoff (fun a => ?_)).trans ?_
    · match a with
      | ⟨0, _⟩ => rfl
      | ⟨1, _⟩ => exact (Nat.zero_add _).symm
      | ⟨2, _⟩ =>
        show n.val = t.val / 8 % 8 * 512 + n.val % 512
        omega
    refine (pay1_apply _ bb _).trans ?_
    refine (pay7_apply _ _ _ bb _).trans ?_
    rw [readAt_all_unread (ms0_0 t) (hs0_0 t) hz4, readAt_all_unread (ms0_1 t) (hs0_1 t) hz4]
    refine congrArg (min · _) ?_
    refine readAt_unit_unread (ms0_2 t) (hs0_2 t) _ xo.1 _ (ix3 (0 : Fin 1) bb n) hoff (fun a => ?_)
    match a with
    | ⟨0, _⟩ => rfl
    | ⟨1, _⟩ => exact (Nat.zero_add _).symm
    | ⟨2, _⟩ =>
      show n.val = t.val / 8 % 8 * 512 + n.val % 512
      omega
  · rw [if_neg hn]
    refine (View.read_writes_cons_unit_of_not_mem _ _ _ _ _ (ix3 (0 : Fin 1) bb n) hoff 2 ?_).trans ?_
    · show n.val < t.val / 8 % 8 * 512 ∨ t.val / 8 % 8 * 512 + 512 ≤ n.val
      omega
    exact congrFun ((hs0_2 t).read_unread xo.1) (ix3 (0 : Fin 1) bb n)

theorem outB_snd (c : Dev nD) (t : Fin cfg0.N) (h0 : ¬t.val % 64 = 0) (xo : Vec Ideal S1x4x4096 .f32 × Vec Ideal S1x4x4096 .f32)
    (bb : Fin 4) (n : Fin 4096) :
    (outB V c t h0 xo).2 (ix3 (0 : Fin 1) bb n)
      = if n.val / 512 = t.val % 8
        then min (xo.2 (ix3 (0 : Fin 1) bb n)) (⨅ r : Fin 512, tileD V c t bb r ⟨n.val % 512, Nat.mod_lt _ (by norm_num)⟩)
        else xo.2 (ix3 (0 : Fin 1) bb n) := by
  have hoff := off2_eq t
  unfold outB
  dsimp only
  unfold kernelRun0_B
  dsimp only
  sl_unfold_run_names
  by_cases hn : n.val / 512 = t.val % 8
  · rw [if_pos hn]
    refine (View.read_writes_cons_unit_of_mem _ _ _ _ _ (ix3 (0 : Fin 1) bb n)
      (ix3 (0 : Fin 1) bb (⟨n.val % 512, Nat.mod_lt _ (by norm_num)⟩ : Fin 512)) hoff (fun a => ?_)).trans ?_
    · match a with
      | ⟨0, _⟩ => rfl
      | ⟨1, _⟩ => exact (Nat.zero_add _).symm
      | ⟨2, _⟩ =>
        show n.val = t.val % 8 * 512 + n.val % 512
        omega
    refine (pay2_apply _ _ bb _).trans ?_
    refine congrArg₂ min ?_ ?_
    · refine readAt_unit_unread (ms0_3 t) (hs0_3 t) _ xo.2 _ (ix3 (0 : Fin 1) bb n) hoff (fun a => ?_)
      match a with
      | ⟨0, _⟩ => rfl
      | ⟨1, _⟩ => exact (Nat.zero_add _).symm
      | ⟨2, _⟩ =>
        show n.val = t.val % 8 * 512 + n.val % 512
        omega
    · refine (pay6_apply _ _ bb _).trans ?_
      rw [readAt_all_unread (ms0_0 t) (hs0_0 t) hz4, readAt_all_unread (ms0_1 t) (hs0_1 t) hz4]
  · rw [if_neg hn]
    refine (View.read_writes_cons_unit_of_not_mem _ _ _ _ _ (ix3 (0 : Fin 1) bb n) hoff 2 ?_).trans ?_
    · show n.val < t.val % 8 * 512 ∨ t.val % 8 * 512 + 512 ≤ n.val
      omega
    exact congrFun ((hs0_3 t).read_unread xo.2) (ix3 (0 : Fin 1) bb n)

end

end Cert.KernelIdeal.Hand

end
-- ==== Proof.KI.BlockReads.lean ====
/-
  The first kernel's input blocks, read at an index.

  The grid's 2 × 8 × 8 points are numbered t = 64 g + 8 i + j (group g, row tile i, column tile j). Both inputs
  are [2, 4, 4096, 3] arrays cut into blocks [1, 4, 512, 3]: a block is one group's four clouds restricted to one
  tile of 512 points. At point t the first input's block is group g = t / 64, tile i = t / 8 % 8, and the second
  input's block is group g, tile j = t % 8. So entry (0, b', r, k) of the block is entry (g, b', 512 · tile + r, k)
  of the array.
-/
import proofs.«107834_j61194694033712_2_alg».proof.Proof.KI.Base
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The index maps over the grid -/

/-- The block indices of the two input windows at point t: group t / 64 on the leading axis, the row tile t / 8 % 8
    (first input) or the column tile t % 8 (second input) on the axis of points, zero on the other two. -/
theorem idx0_in : ∀ t : Fin cfg0.N,
    win0_0.index t (0 : Fin 4) = t.val / 64 ∧ win0_0.index t (1 : Fin 4) = 0
      ∧ win0_0.index t (2 : Fin 4) = t.val / 8 % 8 ∧ win0_0.index t (3 : Fin 4) = 0
      ∧ win0_1.index t (0 : Fin 4) = t.val / 64 ∧ win0_1.index t (1 : Fin 4) = 0
      ∧ win0_1.index t (2 : Fin 4) = t.val % 8 ∧ win0_1.index t (3 : Fin 4) = 0 :=
  (by decide +kernel : ∀ t : Fin grid0.N, _)

/-- A point's number is below 128. -/
theorem t_lt (t : Fin cfg0.N) : t.val < 128 := lt_of_lt_of_eq t.isLt N_0

section Region0

variable (V : (c : Dev nD) → (b : Ref sig .tc) → Buf (Elt F) ((c : Thread nD τ).loc b))

/-- The first input's block at point t: group t / 64, row tile t / 8 % 8. -/
theorem iblk0_in0 (c : Dev nD) (t : Fin cfg0.N) (bb : Fin 4) (r : Fin 512) (k : Fin 3) :
    iblk0 V c 0 t (ix4 (0 : Fin 1) bb r k)
      = V c main_v0 (ix4 (⟨t.val / 64, by have := t_lt t; omega⟩ : Fin 2) bb
          (⟨(t.val / 8 % 8) * 512 + r.val, by omega⟩ : Fin 4096) k) := by
  obtain ⟨e0, e1, e2, e3, -⟩ := idx0_in t
  unfold iblk0
  show V c main_v0 (((cfg0.win 0).blk t).view.emb (ix4 (0 : Fin 1) bb r k)) = V c main_v0 _
  refine congrArg _ (funext fun a => Fin.ext ?_)
  match a with
  | ⟨0, _⟩ => show win0_0.index t (0 : Fin 4) * 1 + 1 * 0 = t.val / 64; omega
  | ⟨1, _⟩ => show win0_0.index t (1 : Fin 4) * 4 + 1 * bb.val = bb.val; omega
  | ⟨2, _⟩ => show win0_0.index t (2 : Fin 4) * 512 + 1 * r.val = t.val / 8 % 8 * 512 + r.val; omega
  | ⟨3, _⟩ => show win0_0.index t (3 : Fin 4) * 3 + 1 * k.val = k.val; omega

/-- The second input's block at point t: group t / 64, column tile t % 8. -/
theorem iblk0_in1 (c : Dev nD) (t : Fin cfg0.N) (bb : Fin 4) (r : Fin 512) (k : Fin 3) :
    iblk0 V c 1 t (ix4 (0 : Fin 1) bb r k)
      = V c main_v1 (ix4 (⟨t.val / 64, by have := t_lt t; omega⟩ : Fin 2) bb
          (⟨(t.val % 8) * 512 + r.val, by omega⟩ : Fin 4096) k) := by
  obtain ⟨-, -, -, -, e0, e1, e2, e3⟩ := idx0_in t
  unfold iblk0
  show V c main_v1 (((cfg0.win 1).blk t).view.emb (ix4 (0 : Fin 1) bb r k)) = V c main_v1 _
  refine congrArg _ (funext fun a => Fin.ext ?_)
  match a with
  | ⟨0, _⟩ => show win0_1.index t (0 : Fin 4) * 1 + 1 * 0 = t.val / 64; omega
  | ⟨1, _⟩ => show win0_1.index t (1 : Fin 4) * 4 + 1 * bb.val = bb.val; omega
  | ⟨2, _⟩ => show win0_1.index t (2 : Fin 4) * 512 + 1 * r.val = t.val % 8 * 512 + r.val; omega
  | ⟨3, _⟩ => show win0_1.index t (3 : Fin 4) * 3 + 1 * k.val = k.val; omega

end Region0

end Cert.KernelIdeal.Hand

end
-- ==== Proof.LibTileInf.lean ====
/-
  Running minima over a row-major sweep of tile pairs.

  4096 points are cut into eight tiles of 512 points; point p lies in tile p / 512, and point c of tile j is
  j · 512 + c. The 8 × 8 grid of tile pairs is swept in row-major order: step u visits the pair (u / 8, u % 8).
  For a function f of two points with values in the extended reals, acc1 f u n is the infimum of f n m over the
  points m whose tile pair with n was visited before step u, and acc2 f u m the infimum of f n m over the points n
  whose tile pair with m was visited before step u. Before the sweep both are the greatest element; step u lowers
  acc1 at the points of the row tile u / 8 by the infimum of f n · over the column tile u % 8, and acc2 at the
  points of the column tile u % 8 by the infimum of f · m over the row tile u / 8, and leaves the other entries
  alone; after all 64 steps they are the infima over all points. Only the complete linear order is used.
-/
import Idealize.ShloMosaic.PureOps.Ideal.Laws

noncomputable section

namespace Cert.TileInf

/-- Point c of tile j. -/
def pt (j : Fin 8) (c : Fin 512) : Fin 4096 := ⟨j.val * 512 + c.val, by omega⟩

/-- The infimum of f n · over the points m whose tile pair with n was visited before step u. -/
def acc1 (f : Fin 4096 → Fin 4096 → EReal) (u : ℕ) (n : Fin 4096) : EReal :=
  ⨅ m : Fin 4096, ⨅ (_ : (n.val / 512) * 8 + m.val / 512 < u), f n m

/-- The infimum of f · m over the points n whose tile pair with m was visited before step u. -/
def acc2 (f : Fin 4096 → Fin 4096 → EReal) (u : ℕ) (m : Fin 4096) : EReal :=
  ⨅ n : Fin 4096, ⨅ (_ : (n.val / 512) * 8 + m.val / 512 < u), f n m

/-- The tile of point c of tile j is j. -/
theorem pt_div (j : Fin 8) (c : Fin 512) : (pt j c).val / 512 = j.val := by
  have hj := j.isLt
  have hc := c.isLt
  show (j.val * 512 + c.val) / 512 = j.val
  omega

/-- Every point is the point p % 512 of its tile p / 512. -/
theorem eq_pt (p : Fin 4096) (h1 : p.val / 512 < 8) (h2 : p.val % 512 < 512) :
    p = pt ⟨p.val / 512, h1⟩ ⟨p.val % 512, h2⟩ := by
  apply Fin.ext
  show p.val = p.val / 512 * 512 + p.val % 512
  omega

/-- Before the sweep no pair has been visited. -/
theorem acc1_zero (f : Fin 4096 → Fin 4096 → EReal) (n : Fin 4096) : acc1 f 0 n = ⊤ := by
  simp [acc1]

/-- Before the sweep no pair has been visited. -/
theorem acc2_zero (f : Fin 4096 → Fin 4096 → EReal) (m : Fin 4096) : acc2 f 0 m = ⊤ := by
  simp [acc2]

/-- Step u lowers the first accumulator on the row tile u / 8 by the infimum over the column tile u % 8. -/
theorem acc1_succ (f : Fin 4096 → Fin 4096 → EReal) (u : ℕ) (hu : u < 64) (n : Fin 4096) :
    acc1 f (u + 1) n =
      if n.val / 512 = u / 8 then
        min (acc1 f u n) (⨅ c : Fin 512, f n (pt ⟨u % 8, Nat.mod_lt _ (by norm_num)⟩ c))
      else acc1 f u n := by
  have hn := n.isLt
  split_ifs with h
  · apply le_antisymm
    · apply le_min
      · exact le_iInf fun m => le_iInf fun hm => iInf₂_le_of_le m (by omega) le_rfl
      · refine le_iInf fun c => iInf₂_le_of_le (pt ⟨u % 8, Nat.mod_lt _ (by norm_num)⟩ c) ?_ le_rfl
        rw [pt_div]
        show n.val / 512 * 8 + u % 8 < u + 1
        omega
    · refine le_iInf fun m => le_iInf fun hm => ?_
      have hm' := m.isLt
      by_cases hlt : n.val / 512 * 8 + m.val / 512 < u
      · exact (min_le_left _ _).trans (iInf₂_le_of_le m hlt le_rfl)
      · have hmu : m.val / 512 = u % 8 := by omega
        refine (min_le_right _ _).trans ?_
        refine (iInf_le _ ⟨m.val % 512, Nat.mod_lt _ (by norm_num)⟩).trans (le_of_eq ?_)
        congr 1
        apply Fin.ext
        show u % 8 * 512 + m.val % 512 = m.val
        omega
  · apply le_antisymm
    · exact le_iInf fun m => le_iInf fun hm => iInf₂_le_of_le m (by omega) le_rfl
    · refine le_iInf fun m => le_iInf fun hm => ?_
      have hm' := m.isLt
      exact iInf₂_le_of_le m (by omega) le_rfl

/-- Step u lowers the second accumulator on the column tile u % 8 by the infimum over the row tile u / 8. -/
theorem acc2_succ (f : Fin 4096 → Fin 4096 → EReal) (u : ℕ) (hu : u < 64) (m : Fin 4096) :
    acc2 f (u + 1) m =
      if m.val / 512 = u % 8 then
        min (acc2 f u m) (⨅ r : Fin 512, f (pt ⟨u / 8, by omega⟩ r) m)
      else acc2 f u m := by
  have hm := m.isLt
  split_ifs with h
  · apply le_antisymm
    · apply le_min
      · exact le_iInf fun n => le_iInf fun hn => iInf₂_le_of_le n (by omega) le_rfl
      · refine le_iInf fun r => iInf₂_le_of_le (pt ⟨u / 8, by omega⟩ r) ?_ le_rfl
        rw [pt_div]
        show u / 8 * 8 + m.val / 512 < u + 1
        omega
    · refine le_iInf fun n => le_iInf fun hn => ?_
      have hn' := n.isLt
      by_cases hlt : n.val / 512 * 8 + m.val / 512 < u
      · exact (min_le_left _ _).trans (iInf₂_le_of_le n hlt le_rfl)
      · have hnu : n.val / 512 = u / 8 := by omega
        refine (min_le_right _ _).trans ?_
        refine (iInf_le _ ⟨n.val % 512, Nat.mod_lt _ (by norm_num)⟩).trans (le_of_eq ?_)
        congr 2
        apply Fin.ext
        show u / 8 * 512 + n.val % 512 = n.val
        omega
  · apply le_antisymm
    · exact le_iInf fun n => le_iInf fun hn => iInf₂_le_of_le n (by omega) le_rfl
    · refine le_iInf fun n => le_iInf fun hn => ?_
      have hn' := n.isLt
      exact iInf₂_le_of_le n (by omega) le_rfl

/-- After all 64 steps every pair has been visited. -/
theorem acc1_full (f : Fin 4096 → Fin 4096 → EReal) (n : Fin 4096) : acc1 f 64 n = ⨅ m : Fin 4096, f n m := by
  have hn := n.isLt
  unfold acc1
  refine iInf_congr fun m => ?_
  have hm := m.isLt
  have h : n.val / 512 * 8 + m.val / 512 < 64 := by omega
  simp [h]

/-- After all 64 steps every pair has been visited. -/
theorem acc2_full (f : Fin 4096 → Fin 4096 → EReal) (m : Fin 4096) : acc2 f 64 m = ⨅ n : Fin 4096, f n m := by
  have hm := m.isLt
  unfold acc2
  refine iInf_congr fun n => ?_
  have hn := n.isLt
  have h : n.val / 512 * 8 + m.val / 512 < 64 := by omega
  simp [h]

end Cert.TileInf

end
-- ==== Proof.Spec.lean ====
/-
  The farthest nearest-neighbour distance between two families of point clouds.

  P and Q are eight clouds of 4096 points with three coordinates each, over the extended reals. For cloud b the
  squared distance from point n of P to point m of Q is written the expanded way,
      dist b n m = (|P b n|² + |Q b m|²) − 2 · ⟨P b n, Q b m⟩,
  each squared norm and the inner product a sum of three products. nn1 b n is the least dist from point n of P to
  any point of Q, nn2 b m the least dist from any point of P to point m of Q (infima over 4096 points), far b the
  larger of the greatest nn1 and the greatest nn2 of cloud b (suprema over 4096 points), and loss their sum over
  the eight clouds. Everything is stated index by index; nothing here mentions a program.
-/
import Idealize.ShloMosaic.PureOps.Ideal.Laws
import Idealize.ShloMosaic.Lib.ValueIdx

noncomputable section

namespace Cert.NNDist

open Idealize.ShloMosaic Idealize.ShloMosaic.ValueIdx

/-- Eight clouds of 4096 points with three coordinates. -/
abbrev Clouds : Type := (⟨3, ![8, 4096, 3]⟩ : Shape).Idx → EReal

/-- The factor two, as the float word both programs spell it with. -/
def two : EReal := Ideal.ofBits .f32 0x40000000#32

/-- The squared norm of point n of cloud b. -/
def sqn (P : Clouds) (b : Fin 8) (n : Fin 4096) : EReal := ∑ k : Fin 3, P (ix3 b n k) * P (ix3 b n k)

/-- The inner product of point n of cloud b of P with point m of cloud b of Q. -/
def dot (P Q : Clouds) (b : Fin 8) (n m : Fin 4096) : EReal := ∑ k : Fin 3, P (ix3 b n k) * Q (ix3 b m k)

/-- The squared distance, expanded: the two squared norms less twice the inner product. -/
def dist (P Q : Clouds) (b : Fin 8) (n m : Fin 4096) : EReal := (sqn P b n + sqn Q b m) - two * dot P Q b n m

/-- The least squared distance from point n of P to a point of Q. -/
def nn1 (P Q : Clouds) (b : Fin 8) (n : Fin 4096) : EReal := ⨅ m : Fin 4096, dist P Q b n m

/-- The least squared distance from a point of P to point m of Q. -/
def nn2 (P Q : Clouds) (b : Fin 8) (m : Fin 4096) : EReal := ⨅ n : Fin 4096, dist P Q b n m

/-- The larger of the two directed farthest nearest-neighbour distances of cloud b. -/
def far (P Q : Clouds) (b : Fin 8) : EReal := max (⨆ n : Fin 4096, nn1 P Q b n) (⨆ m : Fin 4096, nn2 P Q b m)

/-- Their sum over the eight clouds. -/
def loss (P Q : Clouds) : EReal := ∑ b : Fin 8, far P Q b

end Cert.NNDist

end
-- ==== Proof.KI.Invariant.lean ====
/-
  The accumulation invariant of the first kernel: what its two output blocks hold after each grid point, as running
  infima of the squared distances over the tile pairs visited so far.

  The two inputs, read group by group, are two families P and Q of point clouds: group g holds clouds 4 g … 4 g + 3.
  At point t = 64 g + 8 i + j the tile of squared distances the body forms is, for cloud bb of the group, the distance
  from point r of tile i of P to point q of tile j of Q. The body lowers the first output block on the columns of tile
  i by the row infima of that tile, and the second on the columns of tile j by its column infima, starting from +∞ at
  the first point of a group. So after point t the first block holds, at column n of cloud bb, the infimum of the
  distances from point n of P to the points of Q whose tile pair with n is among the first t % 64 + 1 pairs of the
  row-major sweep, and the second block the same with the roles exchanged; after the last point of a group they
  hold the infima over all points, which are the two nearest-neighbour distances.
-/
import proofs.«107834_j61194694033712_2_alg».proof.Proof.KI.OutReads
import proofs.«107834_j61194694033712_2_alg».proof.Proof.KI.BlockReads
import proofs.«107834_j61194694033712_2_alg».proof.Proof.LibTileInf
import proofs.«107834_j61194694033712_2_alg».proof.Proof.Spec
import proofs.«107834_j61194694033712_2_alg».proof.Proof.PayDist
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section

variable (V : (c : Dev nD) → (b : Ref sig .tc) → Buf (Elt Ideal) ((c : Thread nD τ).loc b))
variable (c : Dev nD) (P Q : Cert.NNDist.Clouds)

/-- The squared distance depends on the cloud and the two points only through their values. -/
theorem dist_congr {a a' : Fin 8} {n n' m m' : Fin 4096} (ha : a = a') (hn : n = n') (hm : m = m') :
    Cert.NNDist.dist P Q a n m = Cert.NNDist.dist P Q a' n' m' := by
  subst ha; subst hn; subst hm; rfl

/-! ## The tile of squared distances at a point -/

/-- At point t = 64 g + 8 i + j the tile holds, for cloud bb of group g, the squared distance from point r of tile i
    of P to point q of tile j of Q. -/
theorem tileD_eq
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (t : Fin cfg0.N) (bb : Fin 4) (r q : Fin 512) :
    tileD V c t bb r q
      = Cert.NNDist.dist P Q (⟨4 * (t.val / 64) + bb.val, by have := t_lt t; omega⟩ : Fin 8)
          (Cert.TileInf.pt ⟨t.val / 8 % 8, Nat.mod_lt _ (by norm_num)⟩ r)
          (Cert.TileInf.pt ⟨t.val % 8, Nat.mod_lt _ (by norm_num)⟩ q) := by
  have e0 : ∀ (p : Fin 512) (k : Fin 3), xin0 V c t (ix4 (0 : Fin 1) bb p k)
      = P (ix3 (⟨4 * (t.val / 64) + bb.val, by have := t_lt t; omega⟩ : Fin 8)
          (Cert.TileInf.pt ⟨t.val / 8 % 8, Nat.mod_lt _ (by norm_num)⟩ p) k) :=
    fun p k => (iblk0_in0 V c t bb p k).trans (hV0 _ bb _ k)
  have e1 : ∀ (p : Fin 512) (k : Fin 3), xin1 V c t (ix4 (0 : Fin 1) bb p k)
      = Q (ix3 (⟨4 * (t.val / 64) + bb.val, by have := t_lt t; omega⟩ : Fin 8)
          (Cert.TileInf.pt ⟨t.val % 8, Nat.mod_lt _ (by norm_num)⟩ p) k) :=
    fun p k => (iblk0_in1 V c t bb p k).trans (hV1 _ bb _ k)
  refine (Cert.KernelIdeal.Pay.pay5_apply (xin0 V c t) (xin1 V c t) bb r q).trans ?_
  refine congrArg₂ (· - ·)
    (congrArg₂ (· + ·) (Finset.sum_congr rfl fun k _ => by rw [e0 r k]) (Finset.sum_congr rfl fun k _ => by rw [e1 q k]))
    (congrArg₂ (· * ·) rfl (Finset.sum_congr rfl fun k _ => by rw [e0 r k, e1 q k]))

/-- On the columns of the row tile, the row infima of the tile are the infima of the distances to the points of the
    column tile. -/
theorem tile_inf_fst
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (t : Fin cfg0.N) (g : ℕ) (hg : g < 2) (htg : t.val / 64 = g) (bb : Fin 4) (n : Fin 4096)
    (hn : n.val / 512 = t.val / 8 % 8) :
    (⨅ q : Fin 512, tileD V c t bb ⟨n.val % 512, Nat.mod_lt _ (by norm_num)⟩ q)
      = ⨅ q : Fin 512, Cert.NNDist.dist P Q (⟨4 * g + bb.val, by omega⟩ : Fin 8) n
          (Cert.TileInf.pt ⟨t.val % 64 % 8, Nat.mod_lt _ (by norm_num)⟩ q) := by
  have hn' := n.isLt
  refine iInf_congr fun q => (tileD_eq V c P Q hV0 hV1 t bb _ q).trans ?_
  refine dist_congr P Q (Fin.ext ?_) (Fin.ext ?_) (Fin.ext ?_)
  · show 4 * (t.val / 64) + bb.val = 4 * g + bb.val
    omega
  · show t.val / 8 % 8 * 512 + n.val % 512 = n.val
    omega
  · show t.val % 8 * 512 + q.val = t.val % 64 % 8 * 512 + q.val
    omega

/-- On the columns of the column tile, the column infima of the tile are the infima of the distances from the points
    of the row tile. -/
theorem tile_inf_snd
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (t : Fin cfg0.N) (g : ℕ) (hg : g < 2) (htg : t.val / 64 = g) (bb : Fin 4) (m : Fin 4096)
    (hm : m.val / 512 = t.val % 8) :
    (⨅ r : Fin 512, tileD V c t bb r ⟨m.val % 512, Nat.mod_lt _ (by norm_num)⟩)
      = ⨅ r : Fin 512, Cert.NNDist.dist P Q (⟨4 * g + bb.val, by omega⟩ : Fin 8)
          (Cert.TileInf.pt ⟨t.val % 64 / 8, by omega⟩ r) m := by
  have hm' := m.isLt
  refine iInf_congr fun r => (tileD_eq V c P Q hV0 hV1 t bb r _).trans ?_
  refine dist_congr P Q (Fin.ext ?_) (Fin.ext ?_) (Fin.ext ?_)
  · show 4 * (t.val / 64) + bb.val = 4 * g + bb.val
    omega
  · show t.val / 8 % 8 * 512 + r.val = t.val % 64 / 8 * 512 + r.val
    omega
  · show t.val % 8 * 512 + m.val % 512 = m.val
    omega

/-! ## The invariant, by induction along a group's points -/

/-- After position k, in group g, the first block holds the running infimum over the first k % 64 + 1 tile pairs. -/
theorem inv_fst
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (g : ℕ) (hg : g < 2) (bb : Fin 4) :
    ∀ (k : ℕ) (hk : k < cfg0.N), k / 64 = g → ∀ n : Fin 4096,
      (outsAt0 V c k hk).1 (ix3 (0 : Fin 1) bb n)
        = Cert.TileInf.acc1 (fun n m => Cert.NNDist.dist P Q (⟨4 * g + bb.val, by omega⟩ : Fin 8) n m) (k % 64 + 1) n := by
  intro k
  induction k using Nat.strong_induction_on with
  | _ k ih =>
    intro hk hkg n
    have hk' : k < 128 := lt_of_lt_of_eq hk N_0
    rw [Cert.TileInf.acc1_succ _ (k % 64) (Nat.mod_lt _ (by norm_num)) n]
    by_cases h0 : k % 64 = 0
    · have hA := congrArg (fun o => o.1 (ix3 (0 : Fin 1) bb n)) (outsAt0_A V c ⟨k, hk⟩ h0)
      refine hA.trans ((outA_fst V c ⟨k, hk⟩ h0 bb n).trans ?_)
      have hz : Cert.TileInf.acc1 (fun n m => Cert.NNDist.dist P Q (⟨4 * g + bb.val, by omega⟩ : Fin 8) n m) (k % 64) n = ⊤ := by
        rw [h0]; exact Cert.TileInf.acc1_zero _ n
      rw [hz]
      by_cases hc : n.val / 512 = k / 8 % 8
      · rw [if_pos hc, if_pos (show n.val / 512 = k % 64 / 8 by omega),
          tile_inf_fst V c P Q hV0 hV1 ⟨k, hk⟩ g hg hkg bb n hc, min_eq_right le_top]
      · rw [if_neg hc, if_neg (show ¬n.val / 512 = k % 64 / 8 by omega)]
    · have hB := congrArg (fun o => o.1 (ix3 (0 : Fin 1) bb n)) (outsAt0_B V c ⟨k, hk⟩ h0)
      refine hB.trans ((outB_fst V c ⟨k, hk⟩ h0 _ bb n).trans ?_)
      have hprev := ih (k - 1) (by omega) (Nat.lt_of_le_of_lt (Nat.sub_le _ _) hk) (by omega) n
      rw [show (k - 1) % 64 + 1 = k % 64 by omega] at hprev
      dsimp only at hprev ⊢
      rw [hprev]
      by_cases hc : n.val / 512 = k / 8 % 8
      · rw [if_pos hc, if_pos (show n.val / 512 = k % 64 / 8 by omega),
          tile_inf_fst V c P Q hV0 hV1 ⟨k, hk⟩ g hg hkg bb n hc]
      · rw [if_neg hc, if_neg (show ¬n.val / 512 = k % 64 / 8 by omega)]

/-- After position k, in group g, the second block holds the running infimum over the first k % 64 + 1 tile pairs. -/
theorem inv_snd
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (g : ℕ) (hg : g < 2) (bb : Fin 4) :
    ∀ (k : ℕ) (hk : k < cfg0.N), k / 64 = g → ∀ m : Fin 4096,
      (outsAt0 V c k hk).2 (ix3 (0 : Fin 1) bb m)
        = Cert.TileInf.acc2 (fun n m => Cert.NNDist.dist P Q (⟨4 * g + bb.val, by omega⟩ : Fin 8) n m) (k % 64 + 1) m := by
  intro k
  induction k using Nat.strong_induction_on with
  | _ k ih =>
    intro hk hkg m
    have hk' : k < 128 := lt_of_lt_of_eq hk N_0
    rw [Cert.TileInf.acc2_succ _ (k % 64) (Nat.mod_lt _ (by norm_num)) m]
    by_cases h0 : k % 64 = 0
    · have hA := congrArg (fun o => o.2 (ix3 (0 : Fin 1) bb m)) (outsAt0_A V c ⟨k, hk⟩ h0)
      refine hA.trans ((outA_snd V c ⟨k, hk⟩ h0 bb m).trans ?_)
      have hz : Cert.TileInf.acc2 (fun n m => Cert.NNDist.dist P Q (⟨4 * g + bb.val, by omega⟩ : Fin 8) n m) (k % 64) m = ⊤ := by
        rw [h0]; exact Cert.TileInf.acc2_zero _ m
      rw [hz]
      by_cases hc : m.val / 512 = k % 8
      · rw [if_pos hc, if_pos (show m.val / 512 = k % 64 % 8 by omega),
          tile_inf_snd V c P Q hV0 hV1 ⟨k, hk⟩ g hg hkg bb m hc, min_eq_right le_top]
      · rw [if_neg hc, if_neg (show ¬m.val / 512 = k % 64 % 8 by omega)]
    · have hB := congrArg (fun o => o.2 (ix3 (0 : Fin 1) bb m)) (outsAt0_B V c ⟨k, hk⟩ h0)
      refine hB.trans ((outB_snd V c ⟨k, hk⟩ h0 _ bb m).trans ?_)
      have hprev := ih (k - 1) (by omega) (Nat.lt_of_le_of_lt (Nat.sub_le _ _) hk) (by omega) m
      rw [show (k - 1) % 64 + 1 = k % 64 by omega] at hprev
      dsimp only at hprev ⊢
      rw [hprev]
      by_cases hc : m.val / 512 = k % 8
      · rw [if_pos hc, if_pos (show m.val / 512 = k % 64 % 8 by omega),
          tile_inf_snd V c P Q hV0 hV1 ⟨k, hk⟩ g hg hkg bb m hc]
      · rw [if_neg hc, if_neg (show ¬m.val / 512 = k % 64 % 8 by omega)]

/-! ## The invariant at a grid point, and after a group's last point -/

theorem outsAt0_fst
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (t : Fin cfg0.N) (bb : Fin 4) (n : Fin 4096) :
    (outsAt0 V c t.val t.isLt).1 (ix3 (0 : Fin 1) bb n)
      = Cert.TileInf.acc1 (fun n m => Cert.NNDist.dist P Q (⟨4 * (t.val / 64) + bb.val, by have := t_lt t; omega⟩ : Fin 8) n m)
          (t.val % 64 + 1) n :=
  inv_fst V c P Q hV0 hV1 (t.val / 64) (by have := t_lt t; omega) bb t.val t.isLt rfl n

theorem outsAt0_snd
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (t : Fin cfg0.N) (bb : Fin 4) (n : Fin 4096) :
    (outsAt0 V c t.val t.isLt).2 (ix3 (0 : Fin 1) bb n)
      = Cert.TileInf.acc2 (fun n m => Cert.NNDist.dist P Q (⟨4 * (t.val / 64) + bb.val, by have := t_lt t; omega⟩ : Fin 8) n m)
          (t.val % 64 + 1) n :=
  inv_snd V c P Q hV0 hV1 (t.val / 64) (by have := t_lt t; omega) bb t.val t.isLt rfl n

/-- After the last point of group g the first block holds the least distance from each point of P to a point of Q. -/
theorem outsAt0_last_fst
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (g : Fin 2) (bb : Fin 4) (n : Fin 4096) :
    (outsAt0 V c (64 * g.val + 63) (lt_of_lt_of_eq (by omega) N_0.symm)).1 (ix3 (0 : Fin 1) bb n)
      = Cert.NNDist.nn1 P Q (⟨4 * g.val + bb.val, by omega⟩ : Fin 8) n := by
  refine (inv_fst V c P Q hV0 hV1 g.val g.isLt bb (64 * g.val + 63) _ (by omega) n).trans ?_
  rw [show (64 * g.val + 63) % 64 + 1 = 64 by omega]
  exact Cert.TileInf.acc1_full _ n

/-- After the last point of group g the second block holds the least distance from a point of P to each point of Q. -/
theorem outsAt0_last_snd
    (hV0 : ∀ (g : Fin 2) (bb : Fin 4) (n : Fin 4096) (k : Fin 3),
      V c main_v0 (ix4 g bb n k) = P (ix3 (⟨4 * g.val + bb.val, by omega⟩ : Fin 8) n k))
    (hV1 : ∀ (g : Fin 2) (bb : Fin 4) (n : Fin 4096) (k : Fin 3),
      V c main_v1 (ix4 g bb n k) = Q (ix3 (⟨4 * g.val + bb.val, by omega⟩ : Fin 8) n k))
    (g : Fin 2) (bb : Fin 4) (n : Fin 4096) :
    (outsAt0 V c (64 * g.val + 63) (lt_of_lt_of_eq (by omega) N_0.symm)).2 (ix3 (0 : Fin 1) bb n)
      = Cert.NNDist.nn2 P Q (⟨4 * g.val + bb.val, by omega⟩ : Fin 8) n := by
  refine (inv_snd V c P Q hV0 hV1 g.val g.isLt bb (64 * g.val + 63) _ (by omega) n).trans ?_
  rw [show (64 * g.val + 63) % 64 + 1 = 64 by omega]
  exact Cert.TileInf.acc2_full _ n

end

end Cert.KernelIdeal.Hand

end
-- ==== Proof.PayFinal.lean ====
/-
  The value the second kernel stores: the sum over the eight clouds of the larger of two row suprema.
-/
import proofs.«107834_j61194694033712_2_alg».proof.Proof.Gen.KernelIdeal.Skeleton
import proofs.«107834_j61194694033712_2_alg».proof.Proof.LibFoldInf
import Idealize.ShloMosaic.Lib.ValueIdx
import Idealize.ShloMosaic.Lib.Pipeline.Value
import Idealize.ShloMosaic.Lib.ValueLayout
import Idealize.ShloMosaic.PureOps.Ideal.Laws
import proofs.«107834_j61194694033712_2_alg».proof.Proof.LibVecMinMax
import proofs.«107834_j61194694033712_2_alg».proof.Proof.LibUnitAxes

noncomputable section

namespace Cert.KernelIdeal.Pay

open Cert.KernelIdeal Cert.KernelIdeal.Gen Idealize.ShloMosaic Idealize.ShloMosaic.ValueIdx

/-- Each row of either array is reduced to its supremum, the two suprema of a row to the larger, and the eight results
    are added up; the re-viewings in between move no entry. -/
theorem pay_final (v0 v4 : Vec Ideal S8x4096 .f32) (j : S1x1.Idx) :
    k1_pay1 (F := Ideal) v0 v4 j
      = ∑ b : Fin 8, max (⨆ n : Fin 4096, v0 (ix2 b n)) (⨆ n : Fin 4096, v4 (ix2 b n)) := by
  obtain ⟨u, w, rfl⟩ : ∃ (u w : Fin 1), j = ix2 u w := ⟨j 0, j 1, eq_ix2 j⟩
  have rowSup : ∀ (v : FVec Ideal S8x4096 .f32) (hφ : FKind.Formats .f32)
      (hacc : (0xFF800000#32 : BitVec 32) = FKind.maximumf.neutral .f32 hφ) (b : Fin 8),
      multiReduction (F := Ideal) (φ := .f32) .maximumf [1] S8 (shapeCast S8x4096 v shapeCasts_S8x4096_S8x4096) 0xFF800000#32
        reduces_S8x4096_S8 hφ hacc (ix1 b) = ⨆ n : Fin 4096, v (ix2 b n) := by
    intro v hφ hacc b
    rw [shapeCast_self]
    refine (Cert.VecMinMax.maximumf_single_eq_iSup v reduces_S8x4096_S8 hφ hacc (ix1 b)).trans ?_
    show (⨆ n : Fin 4096, v (reduces_S8x4096_S8.lift (ix1 b) n)) = _
    refine iSup_congr fun n => congrArg v (funext fun a => Fin.ext ?_)
    match a with
    | ⟨0, _⟩ => rfl
    | ⟨1, _⟩ => rfl
  unfold k1_pay1
  refine (shapeCast_a_1a_apply _ shapeCasts_S1_S1x1 u w).trans ?_
  refine (Ideal.multiReduction_add_single _ 0x00000000#32 reduces_S8x1_S1 _ _ (ix1 w)).trans ?_
  show (∑ b : Fin 8, _) = _
  refine Finset.sum_congr rfl fun b _ => ?_
  have hl : reduces_S8x1_S1.lift (ix1 w) b = ix2 b w := funext fun a => Fin.ext (by
    match a with
    | ⟨0, _⟩ => rfl
    | ⟨1, _⟩ => rfl)
  refine (congrArg _ hl).trans ?_
  refine (maximumf_apply _ _ _).trans ?_
  refine congrArg₂ max ?_ ?_
  · refine (Cert.UnitAxes.shapeCast_a_a1_apply _ shapeCasts_S8_S8x1 b w).trans ?_
    exact rowSup v0 _ _ b
  · refine (Cert.UnitAxes.shapeCast_a_a1_apply _ shapeCasts_S8_S8x1 b w).trans ?_
    exact rowSup v4 _ _ b

end Cert.KernelIdeal.Pay

end
-- ==== Proof.KI.Value.lean ====
/-
  The program's result, at the ideal values, is the loss of the two argument arrays.

  Read back boundary by boundary: the scalar is the one entry of the second kernel's output; that entry is the sum
  over the eight clouds of the larger of the two row maxima of the arrays the second kernel reads; those arrays are
  the first kernel's two results with the group and cloud-in-group axes merged (cloud b = 4 g + bb); and the first
  kernel's results are, block by block, what its accumulation leaves after the last point of each group — the two
  nearest-neighbour distances.
-/
import proofs.«107834_j61194694033712_2_alg».proof.Proof.KI.Run
import proofs.«107834_j61194694033712_2_alg».proof.Proof.KI.HostReads
import proofs.«107834_j61194694033712_2_alg».proof.Proof.KI.ArrAt
import proofs.«107834_j61194694033712_2_alg».proof.Proof.KI.Invariant
import proofs.«107834_j61194694033712_2_alg».proof.Proof.PayFinal
import proofs.«107834_j61194694033712_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The two argument arrays as launched. -/
abbrev argP (c : Dev nD) : Cert.NNDist.Clouds := m ((c : Thread nD τ).loc main_arg0)
abbrev argQ (c : Dev nD) : Cert.NNDist.Clouds := m ((c : Thread nD τ).loc main_arg1)

/-- The first region is entered with the arguments regrouped: cloud 4 g + bb is entry (g, bb). -/
theorem V1_v0 (c : Dev nD) (g : Fin 2) (bb : Fin 4) (n : Fin 4096) (k : Fin 3) :
    V1 m ρ c main_v0 (ix4 g bb n k) = argP m c (ix3 (⟨4 * g.val + bb.val, by omega⟩ : Fin 8) n k) :=
  after0_v0 (W0 m ρ c) g bb n k
theorem V1_v1 (c : Dev nD) (g : Fin 2) (bb : Fin 4) (n : Fin 4096) (k : Fin 3) :
    V1 m ρ c main_v1 (ix4 g bb n k) = argQ m c (ix3 (⟨4 * g.val + bb.val, by omega⟩ : Fin 8) n k) :=
  after0_v1 (W0 m ρ c) g bb n k

/-- The second region's first input is the nearest-neighbour distance from each point of P. -/
theorem V3_v3 (c : Dev nD) (b : Fin 8) (n : Fin 4096) :
    V3 m ρ c main_v3 (ix2 b n) = Cert.NNDist.nn1 (argP m c) (argQ m c) b n := by
  refine (after1_v3 (W2 m ρ c) b n).trans ?_
  refine (congrFun (W2_arr m ρ c 2) _).trans ?_
  refine (arrAt0_2 (V1 m ρ) c _ _ n).trans ?_
  refine (outsAt0_last_fst (V1 m ρ) c (argP m c) (argQ m c) (V1_v0 m ρ c) (V1_v1 m ρ c) _ _ n).trans ?_
  exact congrArg (fun b' => Cert.NNDist.nn1 (argP m c) (argQ m c) b' n) (Fin.ext (by show 4 * (b.val / 4) + b.val % 4 = b.val; omega))

/-- The second region's second input is the nearest-neighbour distance to each point of Q. -/
theorem V3_v4 (c : Dev nD) (b : Fin 8) (n : Fin 4096) :
    V3 m ρ c main_v4 (ix2 b n) = Cert.NNDist.nn2 (argP m c) (argQ m c) b n := by
  refine (after1_v4 (W2 m ρ c) b n).trans ?_
  refine (congrFun (W2_arr m ρ c 3) _).trans ?_
  refine (arrAt0_3 (V1 m ρ) c _ _ n).trans ?_
  refine (outsAt0_last_snd (V1 m ρ) c (argP m c) (argQ m c) (V1_v0 m ρ c) (V1_v1 m ρ c) _ _ n).trans ?_
  exact congrArg (fun b' => Cert.NNDist.nn2 (argP m c) (argQ m c) b' n) (Fin.ext (by show 4 * (b.val / 4) + b.val % 4 = b.val; omega))

/-- The result buffer at the return holds the loss of the arguments. -/
theorem result_eq (c : Dev nD) :
    W5 m ρ c (Proc.devRef .tc main_v6) = fun _ => Cert.NNDist.loss (argP m c) (argQ m c) := by
  funext j
  refine (after2_v6 (W4 m ρ c) j).trans ?_
  refine (congrFun (W4_arr m ρ c 2) _).trans ?_
  refine (arrAt1_2 (V3 m ρ) c _).trans ?_
  refine (Cert.KernelIdeal.Pay.pay_final _ _ _).trans ?_
  unfold Cert.NNDist.loss Cert.NNDist.far
  refine Finset.sum_congr rfl fun b _ => ?_
  simp only [V3_v3 m ρ c, V3_v4 m ρ c]

end Cert.KernelIdeal.Hand

end
-- ==== Proof.LibHostMinMax.lean ====
/-
  A host reduction over one axis of an array of rank two or three, read at an index as a fold over that axis.

  For a commutative and associative body, a one-operand reduction of an array x of extents A × B × C over its last
  axis is, at the result index (a, b), the fold of the body from the initial value's element over k ↦ x (a, b, k);
  over its middle axis it is, at (a, c), the fold over k ↦ x (a, k, c); and a reduction of an array of extents
  A × B over its last axis is, at a, the fold over k ↦ x (a, k). The extents are arbitrary; nothing is assumed of
  the entries.
-/
import Idealize.ShloMosaic.PureOps.Reduce
import Idealize.ShloMosaic.Lib.ValueIdx

namespace Cert.HostMinMax

open Idealize.ShloMosaic Idealize.ShloMosaic.ValueIdx

variable {α : Type}

/-- Over the result index (a, b), the index of an A × B × C array whose last coordinate is k. -/
theorem lift_rank3_axis2 {A B C : ℕ} (h : (⟨3, ![A, B, C]⟩ : Shape).Reduces [2] ⟨2, ![A, B]⟩)
    (a : Fin A) (b : Fin B) (k : Fin C) : h.lift (ix2 a b) k = ix3 a b k :=
  funext fun c => Fin.ext (by
    match c with
    | ⟨0, _⟩ => rfl
    | ⟨1, _⟩ => rfl
    | ⟨2, _⟩ => rfl)

/-- Over the result index (a, c), the index of an A × B × C array whose middle coordinate is k. -/
theorem lift_rank3_axis1 {A B C : ℕ} (h : (⟨3, ![A, B, C]⟩ : Shape).Reduces [1] ⟨2, ![A, C]⟩)
    (a : Fin A) (c : Fin C) (k : Fin B) : h.lift (ix2 a c) k = ix3 a k c :=
  funext fun d => Fin.ext (by
    match d with
    | ⟨0, _⟩ => rfl
    | ⟨1, _⟩ => rfl
    | ⟨2, _⟩ => rfl)

/-- Over the result index a, the index of an A × B array whose last coordinate is k. -/
theorem lift_rank2_axis1 {A B : ℕ} (h : (⟨2, ![A, B]⟩ : Shape).Reduces [1] ⟨1, ![A]⟩)
    (a : Fin A) (k : Fin B) : h.lift (ix1 a) k = ix2 a k :=
  funext fun d => Fin.ext (by
    match d with
    | ⟨0, _⟩ => rfl
    | ⟨1, _⟩ => rfl)

/-- A reduction of an A × B × C array over its last axis, at (a, b): the fold over the last coordinate. -/
theorem reduce_rank3_axis2 {A B C : ℕ} {u : Shape} (f : α → α → α) [Std.Commutative f] [Std.Associative f]
    (x : (⟨3, ![A, B, C]⟩ : Shape).Idx → α) (init : u.Idx → α)
    (h' : (⟨3, ![A, B, C]⟩ : Shape).ReducesTo [2] ⟨2, ![A, B]⟩) (hu : 0 < u.numel) (a : Fin A) (b : Fin B) :
    Host.reduce f x init h' hu (ix2 a b)
      = (Finset.univ : Finset (Fin C)).fold f (init (Shape.Idx.first hu)) (fun k => x (ix3 a b k)) := by
  have h : (⟨3, ![A, B, C]⟩ : Shape).Reduces [2] ⟨2, ![A, B]⟩ := ⟨h'.1, (show 0 < 2 by decide), h'.2⟩
  have e : (fun k : Fin C => x (h.lift (ix2 a b) k)) = fun k => x (ix3 a b k) :=
    funext fun k => congrArg x (lift_rank3_axis2 h a b k)
  exact (Host.reduce_eq_fold_single f x init h' h hu (ix2 a b)).trans
    (congrArg (fun g : Fin C → α => (Finset.univ : Finset (Fin C)).fold f (init (Shape.Idx.first hu)) g) e)

/-- A reduction of an A × B × C array over its middle axis, at (a, c): the fold over the middle coordinate. -/
theorem reduce_rank3_axis1 {A B C : ℕ} {u : Shape} (f : α → α → α) [Std.Commutative f] [Std.Associative f]
    (x : (⟨3, ![A, B, C]⟩ : Shape).Idx → α) (init : u.Idx → α)
    (h' : (⟨3, ![A, B, C]⟩ : Shape).ReducesTo [1] ⟨2, ![A, C]⟩) (hu : 0 < u.numel) (a : Fin A) (c : Fin C) :
    Host.reduce f x init h' hu (ix2 a c)
      = (Finset.univ : Finset (Fin B)).fold f (init (Shape.Idx.first hu)) (fun k => x (ix3 a k c)) := by
  have h : (⟨3, ![A, B, C]⟩ : Shape).Reduces [1] ⟨2, ![A, C]⟩ := ⟨h'.1, (show 0 < 2 by decide), h'.2⟩
  have e : (fun k : Fin B => x (h.lift (ix2 a c) k)) = fun k => x (ix3 a k c) :=
    funext fun k => congrArg x (lift_rank3_axis1 h a c k)
  exact (Host.reduce_eq_fold_single f x init h' h hu (ix2 a c)).trans
    (congrArg (fun g : Fin B → α => (Finset.univ : Finset (Fin B)).fold f (init (Shape.Idx.first hu)) g) e)

/-- A reduction of an A × B array over its last axis, at a: the fold over the last coordinate. -/
theorem reduce_rank2_axis1 {A B : ℕ} {u : Shape} (f : α → α → α) [Std.Commutative f] [Std.Associative f]
    (x : (⟨2, ![A, B]⟩ : Shape).Idx → α) (init : u.Idx → α)
    (h' : (⟨2, ![A, B]⟩ : Shape).ReducesTo [1] ⟨1, ![A]⟩) (hu : 0 < u.numel) (a : Fin A) :
    Host.reduce f x init h' hu (ix1 a)
      = (Finset.univ : Finset (Fin B)).fold f (init (Shape.Idx.first hu)) (fun k => x (ix2 a k)) := by
  have h : (⟨2, ![A, B]⟩ : Shape).Reduces [1] ⟨1, ![A]⟩ := ⟨h'.1, (show 0 < 1 by decide), h'.2⟩
  have e : (fun k : Fin B => x (h.lift (ix1 a) k)) = fun k => x (ix2 a k) :=
    funext fun k => congrArg x (lift_rank2_axis1 h a k)
  exact (Host.reduce_eq_fold_single f x init h' h hu (ix1 a)).trans
    (congrArg (fun g : Fin B → α => (Finset.univ : Finset (Fin B)).fold f (init (Shape.Idx.first hu)) g) e)

end Cert.HostMinMax
-- ==== Proof.RefLoss.lean ====
/-
  The reference program computes the farthest nearest-neighbour loss of its two arguments.

  Read one operation at a time, the program forms the squared norms of the points of each cloud, the inner products
  of every point of the first argument with every point of the second of the same cloud, and from them the expanded
  squared distance (the two squared norms less twice the inner product). A reduction with `min` from the word of +∞
  over the points of the second argument is the infimum of the distances from a point of the first, and over the
  points of the first the infimum of the distances to a point of the second; a reduction with `max` from the word of
  −∞ is the supremum of each family of infima; the larger of the two suprema is summed over the eight clouds from the
  zero word. Each step is the corresponding definition of the specification, index by index.
-/
import proofs.«107834_j61194694033712_2_alg».proof.Proof.Gen.ReferenceIdeal.Run
import proofs.«107834_j61194694033712_2_alg».proof.Proof.Gen.ReferenceIdeal.Read
import proofs.«107834_j61194694033712_2_alg».proof.Proof.Spec
import proofs.«107834_j61194694033712_2_alg».proof.Proof.LibFoldInf
import proofs.«107834_j61194694033712_2_alg».proof.Proof.LibHostMinMax

noncomputable section

namespace Cert.ReferenceIdeal.RefValue

open Cert.ReferenceIdeal Cert.ReferenceIdeal.Gen Cert.ReferenceIdeal.Read Idealize.ShloMosaic
  Idealize.ShloMosaic.ValueIdx Cert.NNDist

/-! ## The indices the layout operations read at -/

theorem idx_sqn (b : Fin 8) (n : Fin 4096) (k : Fin 3) : idx_main_v1 (ix2 b n) k = ix3 b n k :=
  funext fun a => by match a with | ⟨0, _⟩ => rfl | ⟨1, _⟩ => rfl | ⟨2, _⟩ => rfl

theorem idx_sqn' (b : Fin 8) (n : Fin 4096) (k : Fin 3) : idx_main_v3 (ix2 b n) k = ix3 b n k :=
  funext fun a => by match a with | ⟨0, _⟩ => rfl | ⟨1, _⟩ => rfl | ⟨2, _⟩ => rfl

theorem idx_row (b : Fin 8) (n m : Fin 4096) : idx_main_v5 (idx_main_v7 (ix3 b n m)) = ix2 b n :=
  funext fun a => by match a with | ⟨0, _⟩ => rfl | ⟨1, _⟩ => rfl

theorem idx_col (b : Fin 8) (n m : Fin 4096) : idx_main_v6 (idx_main_v8 (ix3 b n m)) = ix2 b m :=
  funext fun a => by match a with | ⟨0, _⟩ => rfl | ⟨1, _⟩ => rfl

theorem idx_lhs (b : Fin 8) (n m : Fin 4096) (k : Fin 3) : lidx_main_v4 (ix3 b n m) k = ix3 b n k :=
  funext fun a => by match a with | ⟨0, _⟩ => rfl | ⟨1, _⟩ => rfl | ⟨2, _⟩ => rfl

theorem idx_rhs (b : Fin 8) (n m : Fin 4096) (k : Fin 3) : ridx_main_v4 (ix3 b n m) k = ix3 b m k :=
  funext fun a => by match a with | ⟨0, _⟩ => rfl | ⟨1, _⟩ => rfl | ⟨2, _⟩ => rfl

/-! ## The squared distance -/

/-- The first sum of squares is the squared norm of a point of the first argument. -/
theorem sqn0_apply (x0 : (⟨S8x4096x3, .f32⟩ : BufTy).Contents (Elt Ideal)) (b : Fin 8) (n : Fin 4096) :
    val_main_v1 (F := Ideal) x0 (ix2 b n) = sqn x0 b n := by
  rw [val_main_v1_apply]
  refine (congrArg (· + _) Ideal.ofBits_zero_f32).trans ?_
  rw [zero_add]
  exact Finset.sum_congr rfl fun k _ => by rw [val_main_v0_apply, idx_sqn]; rfl

/-- The second sum of squares is the squared norm of a point of the second argument. -/
theorem sqn1_apply (x1 : (⟨S8x4096x3, .f32⟩ : BufTy).Contents (Elt Ideal)) (b : Fin 8) (m : Fin 4096) :
    val_main_v3 (F := Ideal) x1 (ix2 b m) = sqn x1 b m := by
  rw [val_main_v3_apply]
  refine (congrArg (· + _) Ideal.ofBits_zero_f32).trans ?_
  rw [zero_add]
  exact Finset.sum_congr rfl fun k _ => by rw [val_main_v2_apply, idx_sqn']; rfl

/-- The contraction over the three coordinates is the inner product of the two points. -/
theorem dot_apply (x0 x1 : (⟨S8x4096x3, .f32⟩ : BufTy).Contents (Elt Ideal)) (b : Fin 8) (n m : Fin 4096) :
    val_main_v4 (F := Ideal) x0 x1 (ix3 b n m) = dot x0 x1 b n m := by
  rw [val_main_v4_apply]
  exact Finset.sum_congr rfl fun k _ => by rw [idx_lhs, idx_rhs]

/-- The expanded squared distance, at every pair of points of a cloud. -/
theorem d_apply (x0 x1 : (⟨S8x4096x3, .f32⟩ : BufTy).Contents (Elt Ideal)) (b : Fin 8) (n m : Fin 4096) :
    val_main_v12 (F := Ideal) x0 x1 (ix3 b n m) = dist x0 x1 b n m := by
  rw [val_main_v12_apply, val_main_v9_apply, val_main_v11_apply, val_main_v7_apply, val_main_v5_apply,
    val_main_v8_apply, val_main_v6_apply, val_main_v10_apply, val_main_cst_1_apply, idx_row, idx_col,
    sqn0_apply, sqn1_apply, dot_apply]
  rfl

/-! ## The four reductions with `min` and `max` -/

/-- The reduction with `min` over the points of the second argument is the infimum of the distances from a point of
    the first. -/
theorem nn1_apply (x0 x1 : (⟨S8x4096x3, .f32⟩ : BufTy).Contents (Elt Ideal)) (b : Fin 8) (n : Fin 4096) :
    val_main_v13 (F := Ideal) x0 x1 (ix2 b n) = nn1 x0 x1 b n := by
  unfold val_main_v13
  generalize hy : val_main_v12 (F := Ideal) x0 x1 = y
  refine (Cert.HostMinMax.reduce_rank3_axis2 (FloatOps.minimumf (F := Ideal) (φ := .f32)) y (val_main_cst_2 (F := Ideal))
    reducesTo_S8x4096x4096_S8x4096_d2 h_S_ b n).trans ?_
  have e : (fun k : Fin 4096 => y (ix3 b n k)) = fun m => dist x0 x1 b n m :=
    funext fun m => by rw [← hy]; exact d_apply x0 x1 b n m
  rw [e]
  exact Cert.FoldInf.fold_min_eq_iInf _

/-- The reduction with `min` over the points of the first argument is the infimum of the distances to a point of the
    second. -/
theorem nn2_apply (x0 x1 : (⟨S8x4096x3, .f32⟩ : BufTy).Contents (Elt Ideal)) (b : Fin 8) (m : Fin 4096) :
    val_main_v14 (F := Ideal) x0 x1 (ix2 b m) = nn2 x0 x1 b m := by
  unfold val_main_v14
  generalize hy : val_main_v12 (F := Ideal) x0 x1 = y
  refine (Cert.HostMinMax.reduce_rank3_axis1 (FloatOps.minimumf (F := Ideal) (φ := .f32)) y (val_main_cst_3 (F := Ideal))
    reducesTo_S8x4096x4096_S8x4096_d1 h_S_ b m).trans ?_
  have e : (fun k : Fin 4096 => y (ix3 b k m)) = fun n => dist x0 x1 b n m :=
    funext fun n => by rw [← hy]; exact d_apply x0 x1 b n m
  rw [e]
  exact Cert.FoldInf.fold_min_eq_iInf _

/-- The reduction with `max` of the first family of infima is its supremum. -/
theorem sup1_apply (x0 x1 : (⟨S8x4096x3, .f32⟩ : BufTy).Contents (Elt Ideal)) (b : Fin 8) :
    val_main_v15 (F := Ideal) x0 x1 (ix1 b) = ⨆ n : Fin 4096, nn1 x0 x1 b n := by
  unfold val_main_v15
  generalize hy : val_main_v13 (F := Ideal) x0 x1 = y
  refine (Cert.HostMinMax.reduce_rank2_axis1 (FloatOps.maximumf (F := Ideal) (φ := .f32)) y (val_main_cst_4 (F := Ideal))
    reducesTo_S8x4096_S8_d1 h_S_ b).trans ?_
  have e : (fun k : Fin 4096 => y (ix2 b k)) = fun n => nn1 x0 x1 b n :=
    funext fun n => by rw [← hy]; exact nn1_apply x0 x1 b n
  rw [e]
  exact Cert.FoldInf.fold_max_eq_iSup _

/-- The reduction with `max` of the second family of infima is its supremum. -/
theorem sup2_apply (x0 x1 : (⟨S8x4096x3, .f32⟩ : BufTy).Contents (Elt Ideal)) (b : Fin 8) :
    val_main_v16 (F := Ideal) x0 x1 (ix1 b) = ⨆ m : Fin 4096, nn2 x0 x1 b m := by
  unfold val_main_v16
  generalize hy : val_main_v14 (F := Ideal) x0 x1 = y
  refine (Cert.HostMinMax.reduce_rank2_axis1 (FloatOps.maximumf (F := Ideal) (φ := .f32)) y (val_main_cst_5 (F := Ideal))
    reducesTo_S8x4096_S8_d1 h_S_ b).trans ?_
  have e : (fun k : Fin 4096 => y (ix2 b k)) = fun m => nn2 x0 x1 b m :=
    funext fun m => by rw [← hy]; exact nn2_apply x0 x1 b m
  rw [e]
  exact Cert.FoldInf.fold_max_eq_iSup _

/-- The larger of the two suprema, for each cloud. -/
theorem far_apply (x0 x1 : (⟨S8x4096x3, .f32⟩ : BufTy).Contents (Elt Ideal)) (b : Fin 8) :
    val_main_v17 (F := Ideal) x0 x1 (ix1 b) = far x0 x1 b := by
  rw [val_main_v17_apply, sup1_apply, sup2_apply]
  rfl

/-! ## The sum over the clouds -/

/-- A sum over the indices of an array of rank one is the sum over its coordinate. -/
theorem sum_idx1 {n : ℕ} (f : (⟨1, ![n]⟩ : Shape).Idx → EReal) : ∑ j, f j = ∑ a : Fin n, f (ix1 a) :=
  (Equiv.sum_comp (⟨fun a => ix1 a, fun j => j 0, fun _ => rfl, fun j => (eq_ix1 j).symm⟩ : Fin n ≃ (⟨1, ![n]⟩ : Shape).Idx) f).symm

/-- The reference's result, at its one index, is the loss. -/
theorem loss_eq (x0 x1 : (⟨S8x4096x3, .f32⟩ : BufTy).Contents (Elt Ideal)) :
    Cert.ReferenceIdeal.Read.val_main_v18 (F := Ideal) x0 x1 = fun _ => Cert.NNDist.loss x0 x1 := by
  funext i
  rw [val_main_v18_apply]
  refine (congrArg (· + _) Ideal.ofBits_zero_f32).trans ?_
  rw [zero_add]
  refine (sum_idx1 _).trans ?_
  exact Finset.sum_congr rfl fun b _ => far_apply x0 x1 b

end Cert.ReferenceIdeal.RefValue

end
-- ==== Proof.lean ====
/-
  Two programs compute, for two families of eight clouds of 4096 points, the sum over the clouds of the larger of the
  two directed farthest nearest-neighbour squared distances, the squared distance written |x|² + |y|² − 2⟨x, y⟩.

  The reference does it with whole arrays. The kernel program regroups the clouds into two groups of four, sweeps each
  group's 8 × 8 tile pairs of 512 × 512 distances keeping two running minima (over the rows' and over the columns'
  partners seen so far, started at +∞ at the first pair of the group), and a second kernel takes the two maxima, the
  larger of them and the sum. At the ideal values a minimum taken tile by tile is the minimum over everything, a
  regrouping changes no entry, and both programs spell the distance with the same operations in the same order, so
  the two results are the same extended real for every input: no finiteness of the inputs is used.

  The frames: each program's run is followed boundary by boundary (host reshapes; each kernel as a pipeline whose body
  is run at a generic grid point), and no step writes an argument. The idealization rewrote nothing.
-/
import proofs.«107834_j61194694033712_2_alg».proof.Defs
import proofs.«107834_j61194694033712_2_alg».proof.Proof.Gen.Kernel
import proofs.«107834_j61194694033712_2_alg».proof.Proof.Gen.KernelIdeal
import proofs.«107834_j61194694033712_2_alg».proof.Proof.Gen.ReferenceIdeal
import proofs.«107834_j61194694033712_2_alg».proof.Proof.Gen.ReferenceIdeal.Run
import proofs.«107834_j61194694033712_2_alg».proof.Proof.Gen.ReferenceIdeal.Read
import proofs.«107834_j61194694033712_2_alg».proof.Proof.Gen.Pre_finite_inputs
import proofs.«107834_j61194694033712_2_alg».proof.Proof.K.Run
import proofs.«107834_j61194694033712_2_alg».proof.Proof.KI.Run
import proofs.«107834_j61194694033712_2_alg».proof.Proof.KI.Value
import proofs.«107834_j61194694033712_2_alg».proof.Proof.RefLoss
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the (agreeing) arguments in their result buffer. -/
theorem algebraic : Cert.algebraic_KernelIdeal_ReferenceIdeal := by
  intro m ρ m' ρ' _ hagree
  refine ⟨fun c => fun _ => Cert.NNDist.loss (Cert.KernelIdeal.Hand.argP m c) (Cert.KernelIdeal.Hand.argQ m c), ?_, ?_⟩
  · exact (θ_run Cert.KernelIdeal.defs _ _).mono (fun _ h c =>
      ⟨(h c _ (Cert.KernelIdeal.Hand.mem_uc Cert.KernelIdeal.main_v6 (by decide))).trans (Cert.KernelIdeal.Hand.result_eq m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.loss_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
